-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v94_0)) (v2 : (c : Dev Cert.KernelIdeal.nD) → Buf (Elt Ideal) ((c.tc : Thread Cert.KernelIdeal.nD Cert.KernelIdeal.τ).loc Cert.KernelIdeal.main_v94_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v94_0) = v1 c
          ∧ r.2.mem ((c.tc : Thread Cert.KernelIdeal.nD Cert.KernelIdeal.τ).loc Cert.KernelIdeal.main_v94_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1386 : Shape := ⟨2, ![8192, 1386]⟩
abbrev S65536 : Shape := ⟨1, ![65536]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S_ : Shape := ⟨0, ![]⟩

class Facts : Prop where
  bcast_S_S8192x1386 : S_.BroadcastsInDim S8192x1386 (![] : Fin 0 → Fin S8192x1386.rank)
  reducesTo_S8192x1386_S_d0_1 : S8192x1386.ReducesTo [0, 1] S_
  h_S_ : 0 < S_.numel
  bcast_S_S1386x4096 : S_.BroadcastsInDim S1386x4096 (![] : Fin 0 → Fin S1386x4096.rank)
  reducesTo_S1386x4096_S_d0_1 : S1386x4096.ReducesTo [0, 1] S_
  bcast_S_S4096 : S_.BroadcastsInDim S4096 (![] : Fin 0 → Fin S4096.rank)
  reducesTo_S4096_S_d0 : S4096.ReducesTo [0] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8192x1386 .f32) (main_arg1 : IVec S65536 32) (main_arg2 : IVec S65536 32) (main_arg3 : FVec F S1386x4096 .f32) (main_arg4 : FVec F S4096 .f32) (main_arg5 : FVec F S4096x64 .f32) (main_arg6 : FVec F S64 .f32) : IVec S_ 1 :=
  let main_v0 : FVec F S8192x1386 .f32 := Host.absf main_arg0
  let main_cst : FVec F S_ .f32 := constant S_ .f32 0x7F800000#32
  let main_v1 : FVec F S8192x1386 .f32 := broadcastInDim S8192x1386 ![] bcast_S_S8192x1386 main_cst
  let main_v2 : IVec S8192x1386 1 := cmpf .olt main_v0 main_v1
  let main_c : IVec S_ 1 := constantI S_ 1 1#1
  let main_v3 : IVec S_ 1 := (fun x v => Host.reduce IntOp.andi x v reducesTo_S8192x1386_S_d0_1 h_S_) main_v2 main_c
  let main_v4 : FVec F S1386x4096 .f32 := Host.absf main_arg3
  let main_cst_0 : FVec F S_ .f32 := constant S_ .f32 0x7F800000#32
  let main_v5 : FVec F S1386x4096 .f32 := broadcastInDim S1386x4096 ![] bcast_S_S1386x4096 main_cst_0
  let main_v6 : IVec S1386x4096 1 := cmpf .olt main_v4 main_v5
  let main_c_1 : IVec S_ 1 := constantI S_ 1 1#1
  let main_v7 : IVec S_ 1 := (fun x v => Host.reduce IntOp.andi x v reducesTo_S1386x4096_S_d0_1 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x64 .f32 := Host.absf main_arg5
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg6 main_v13 main_v16
-- ==== Kernel.lean ====
abbrev S8192x1386 : Shape := ⟨2, ![8192, 1386]⟩
abbrev S65536 : Shape := ⟨1, ![65536]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S_ : Shape := ⟨0, ![]⟩
abbrev S8192 : Shape := ⟨1, ![8192]⟩
abbrev S65536x1 : Shape := ⟨2, ![65536, 1]⟩
abbrev S65536x1386 : Shape := ⟨2, ![65536, 1386]⟩
abbrev S8192x1 : Shape := ⟨2, ![8192, 1]⟩
abbrev S1x4096 : Shape := ⟨2, ![1, 4096]⟩
abbrev S8192x4096 : Shape := ⟨2, ![8192, 4096]⟩
abbrev S256x1386 : Shape := ⟨2, ![256, 1386]⟩
abbrev S256x4096 : Shape := ⟨2, ![256, 4096]⟩
abbrev S8192x64 : Shape := ⟨2, ![8192, 64]⟩
abbrev S1024x4096 : Shape := ⟨2, ![1024, 4096]⟩
abbrev S1024x64 : Shape := ⟨2, ![1024, 64]⟩
abbrev S65536x64 : Shape := ⟨2, ![65536, 64]⟩
abbrev S1x64 : Shape := ⟨2, ![1, 64]⟩
abbrev S2048x64 : Shape := ⟨2, ![2048, 64]⟩

abbrev nBuf : Space → Nat
  | .hbm => 141
  | .vmem => 18
  | .smem => 0
  | _ => 0

abbrev hbmTy0_0 (i : Nat) : BufTy := match i % 128 with
  | 0 => ⟨S8192x1386, .f32⟩
  | 1 => ⟨S65536, .i32⟩
  | 2 => ⟨S65536, .i32⟩
  | 3 => ⟨S1386x4096, .f32⟩
  | 4 => ⟨S4096, .f32⟩
  | 5 => ⟨S4096x64, .f32⟩
  | 6 => ⟨S64, .f32⟩
  | 7 => ⟨S_, .f32⟩
  | 8 => ⟨S65536, .f32⟩
  | 9 => ⟨S_, .f32⟩
  | 10 => ⟨S8192, .f32⟩
  | 11 => ⟨S65536x1, .i32⟩
  | 12 => ⟨S8192, .f32⟩
  | 13 => ⟨S_, .f32⟩
  | 14 => ⟨S8192, .f32⟩
  | 15 => ⟨S65536x1, .i32⟩
  | 16 => ⟨S8192, .f32⟩
  | 17 => ⟨S_, .f32⟩
  | 18 => ⟨S8192, .f32⟩
  | 19 => ⟨S8192, .i1⟩
  | 20 => ⟨S_, .f32⟩
  | 21 => ⟨S8192, .f32⟩
  | 22 => ⟨S8192, .f32⟩
  | 23 => ⟨S_, .f32⟩
  | 24 => ⟨S_, .f32⟩
  | 25 => ⟨S8192, .f32⟩
  | 26 => ⟨S8192, .f32⟩
  | 27 => ⟨S_, .f32⟩
  | 28 => ⟨S8192, .f32⟩
  | 29 => ⟨S8192, .i1⟩
  | 30 => ⟨S_, .f32⟩
  | 31 => ⟨S8192, .f32⟩
  | 32 => ⟨S8192, .f32⟩
  | 33 => ⟨S_, .f32⟩
  | 34 => ⟨S_, .f32⟩
  | 35 => ⟨S8192, .f32⟩
  | 36 => ⟨S8192, .f32⟩
  | 37 => ⟨S_, .i32⟩
  | 38 => ⟨S65536, .i32⟩
  | 39 => ⟨S65536, .i1⟩
  | 40 => ⟨S_, .i32⟩
  | 41 => ⟨S65536, .i32⟩
  | 42 => ⟨S65536, .i32⟩
  | 43 => ⟨S65536, .i32⟩
  | 44 => ⟨S65536x1, .i32⟩
  | 45 => ⟨S65536x1386, .f32⟩
  | 46 => ⟨S_, .f32⟩
  | 47 => ⟨S8192x1386, .f32⟩
  | 48 => ⟨S65536x1, .i32⟩
  | 49 => ⟨S8192x1386, .f32⟩
  | 50 => ⟨S8192x1, .f32⟩
  | 51 => ⟨S8192x1386, .f32⟩
  | 52 => ⟨S8192x1386, .f32⟩
  | 53 => ⟨S_, .i32⟩
  | 54 => ⟨S65536, .i32⟩
  | 55 => ⟨S65536, .i1⟩
  | 56 => ⟨S_, .i32⟩
  | 57 => ⟨S65536, .i32⟩
  | 58 => ⟨S65536, .i32⟩
  | 59 => ⟨S65536, .i32⟩
  | 60 => ⟨S65536x1, .i32⟩
  | 61 => ⟨S65536x1386, .f32⟩
  | 62 => ⟨S_, .f32⟩
  | 63 => ⟨S8192x1386, .f32⟩
  | 64 => ⟨S65536x1, .i32⟩
  | 65 => ⟨S8192x1386, .f32⟩
  | 66 => ⟨S8192x1, .f32⟩
  | 67 => ⟨S8192x1386, .f32⟩
  | 68 => ⟨S8192x1386, .f32⟩
  | 69 => ⟨S8192x1386, .bf16⟩
  | 70 => ⟨S1386x4096, .bf16⟩
  | 71 => ⟨S1x4096, .f32⟩
  | 72 => ⟨S8192x4096, .f32⟩
  | 73 => ⟨S8192x4096, .bf16⟩
  | 74 => ⟨S4096x64, .bf16⟩
  | 75 => ⟨S8192x64, .f32⟩
  | 76 => ⟨S_, .f32⟩
  | 77 => ⟨S65536, .f32⟩
  | 78 => ⟨S_, .f32⟩
  | 79 => ⟨S8192, .f32⟩
  | 80 => ⟨S65536x1, .i32⟩
  | 81 => ⟨S8192, .f32⟩
  | 82 => ⟨S_, .f32⟩
  | 83 => ⟨S8192, .f32⟩
  | 84 => ⟨S65536x1, .i32⟩
  | 85 => ⟨S8192, .f32⟩
  | 86 => ⟨S_, .f32⟩
  | 87 => ⟨S8192, .f32⟩
  | 88 => ⟨S8192, .i1⟩
  | 89 => ⟨S_, .f32⟩
  | 90 => ⟨S8192, .f32⟩
  | 91 => ⟨S8192, .f32⟩
  | 92 => ⟨S_, .f32⟩
  | 93 => ⟨S_, .f32⟩
  | 94 => ⟨S8192, .f32⟩
  | 95 => ⟨S8192, .f32⟩
  | 96 => ⟨S_, .f32⟩
  | 97 => ⟨S8192, .f32⟩
  | 98 => ⟨S8192, .i1⟩
  | 99 => ⟨S_, .f32⟩
  | 100 => ⟨S8192, .f32⟩
  | 101 => ⟨S8192, .f32⟩
  | 102 => ⟨S_, .f32⟩
  | 103 => ⟨S_, .f32⟩
  | 104 => ⟨S8192, .f32⟩
  | 105 => ⟨S8192, .f32⟩
  | 106 => ⟨S_, .i32⟩
  | 107 => ⟨S65536, .i32⟩
  | 108 => ⟨S65536, .i1⟩
  | 109 => ⟨S_, .i32⟩
  | 110 => ⟨S65536, .i32⟩
  | 111 => ⟨S65536, .i32⟩
  | 112 => ⟨S65536, .i32⟩
  | 113 => ⟨S65536x1, .i32⟩
  | 114 => ⟨S65536x64, .f32⟩
  | 115 => ⟨S_, .f32⟩
  | 116 => ⟨S8192x64, .f32⟩
  | 117 => ⟨S65536x1, .i32⟩
  | 118 => ⟨S8192x64, .f32⟩
  | 119 => ⟨S8192x1, .f32⟩
  | 120 => ⟨S8192x64, .f32⟩
  | 121 => ⟨S8192x64, .f32⟩
  | 122 => ⟨S_, .i32⟩
  | 123 => ⟨S65536, .i32⟩
  | 124 => ⟨S65536, .i1⟩
  | 125 => ⟨S_, .i32⟩
  | 126 => ⟨S65536, .i32⟩
  | 127 => ⟨S65536, .i32⟩
  | _ => ⟨S8192x1386, .f32⟩

abbrev hbmTy0_1 (i : Nat) : BufTy := match i % 128 with
  | 0 => ⟨S65536, .i32⟩
  | 1 => ⟨S65536x1, .i32⟩
  | 2 => ⟨S65536x64, .f32⟩
  | 3 => ⟨S_, .f32⟩
  | 4 => ⟨S8192x64, .f32⟩
  | 5 => ⟨S65536x1, .i32⟩
  | 6 => ⟨S8192x64, .f32⟩
  | 7 => ⟨S8192x1, .f32⟩
  | 8 => ⟨S8192x64, .f32⟩
  | 9 => ⟨S8192x64, .f32⟩
  | 10 => ⟨S1x64, .f32⟩
  | 11 => ⟨S8192x64, .f32⟩
  | 12 => ⟨S8192x64, .f32⟩
  | _ => ⟨S8192x1386, .f32⟩

abbrev hbmTy (i : Nat) : BufTy := match i / 128 with
  | 0 => hbmTy0_0 i
  | 1 => hbmTy0_1 i
  | _ => ⟨S8192x1386, .f32⟩

abbrev bufTy : (tb : Table) → Fin (tcTables nBuf tb) → BufTy
  | .hbm, ⟨i, _⟩ => hbmTy i
  | .local _ .vmem, ⟨0, _⟩ => ⟨S256x1386, .bf16⟩
  | .local _ .vmem, ⟨1, _⟩ => ⟨S256x1386, .bf16⟩
  | .local _ .vmem, ⟨2, _⟩ => ⟨S1386x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S1024x4096, .bf16⟩
  | .local _ .vmem, ⟨7, _⟩ => ⟨S1024x4096, .bf16⟩
  | .local _ .vmem, ⟨8, _⟩ => ⟨S4096x64, .bf16⟩
  | .local _ .vmem, ⟨9, _⟩ => ⟨S1024x64, .f32⟩
  | .local _ .vmem, ⟨10, _⟩ => ⟨S1024x64, .f32⟩
  | .local _ .vmem, ⟨11, _⟩ => ⟨S2048x64, .f32⟩
  | .local _ .vmem, ⟨12, _⟩ => ⟨S2048x64, .f32⟩
  | .local _ .vmem, ⟨13, _⟩ => ⟨S1x64, .f32⟩
  | .local _ .vmem, ⟨14, _⟩ => ⟨S2048x64, .f32⟩
  | .local _ .vmem, ⟨15, _⟩ => ⟨S2048x64, .f32⟩
  | .local _ .vmem, ⟨16, _⟩ => ⟨S2048x64, .f32⟩
  | .local _ .vmem, ⟨17, _⟩ => ⟨S2048x64, .f32⟩
  | _, _ => ⟨S8192x1386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_v13 : Ref sig .tc := ⟨.hbm, 29, rfl⟩
abbrev main_cst_6 : Ref sig .tc := ⟨.hbm, 30, rfl⟩
abbrev main_v14 : Ref sig .tc := ⟨.hbm, 31, rfl⟩
abbrev main_v15 : Ref sig .tc := ⟨.hbm, 32, rfl⟩
abbrev main_cst_7 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_8 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_9 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_c_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_12 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_cst_14 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_15 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_16 : Ref sig .tc := ⟨.hbm, 86, rfl⟩
abbrev main_v57 : Ref sig .tc := ⟨.hbm, 87, rfl⟩
abbrev main_v58 : Ref sig .tc := ⟨.hbm, 88, rfl⟩
abbrev main_cst_17 : Ref sig .tc := ⟨.hbm, 89, rfl⟩
abbrev main_v59 : Ref sig .tc := ⟨.hbm, 90, rfl⟩
abbrev main_v60 : Ref sig .tc := ⟨.hbm, 91, rfl⟩
abbrev main_cst_18 : Ref sig .tc := ⟨.hbm, 92, rfl⟩
abbrev main_call2_v0 : Ref sig .tc := ⟨.hbm, 93, rfl⟩
abbrev main_call2_v1 : Ref sig .tc := ⟨.hbm, 94, rfl⟩
abbrev main_v61 : Ref sig .tc := ⟨.hbm, 95, rfl⟩
abbrev main_cst_19 : Ref sig .tc := ⟨.hbm, 96, rfl⟩
abbrev main_v62 : Ref sig .tc := ⟨.hbm, 97, rfl⟩
abbrev main_v63 : Ref sig .tc := ⟨.hbm, 98, rfl⟩
abbrev main_cst_20 : Ref sig .tc := ⟨.hbm, 99, rfl⟩
abbrev main_v64 : Ref sig .tc := ⟨.hbm, 100, rfl⟩
abbrev main_v65 : Ref sig .tc := ⟨.hbm, 101, rfl⟩
abbrev main_cst_21 : Ref sig .tc := ⟨.hbm, 102, rfl⟩
abbrev main_call3_v0 : Ref sig .tc := ⟨.hbm, 103, rfl⟩
abbrev main_call3_v1 : Ref sig .tc := ⟨.hbm, 104, rfl⟩
abbrev main_v66 : Ref sig .tc := ⟨.hbm, 105, rfl⟩
abbrev main_c_22 : Ref sig .tc := ⟨.hbm, 106, rfl⟩
abbrev main_v67 : Ref sig .tc := ⟨.hbm, 107, rfl⟩
abbrev main_v68 : Ref sig .tc := ⟨.hbm, 108, rfl⟩
abbrev main_c_23 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_24 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_c_25 : Ref sig .tc := ⟨.hbm, 122, rfl⟩
abbrev main_v80 : Ref sig .tc := ⟨.hbm, 123, rfl⟩
abbrev main_v81 : Ref sig .tc := ⟨.hbm, 124, rfl⟩
abbrev main_c_26 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_27 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94_0 : Ref sig .tc := ⟨.hbm, 139, rfl⟩
abbrev main_v94_1 : Ref sig .tc := ⟨.hbm, 140, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1386 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1386x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S_S8192x1386 : S_.BroadcastsInDim S8192x1386 (![] : Fin 0 → Fin S8192x1386.rank)
  bcast_S8192_S8192x1_0 : S8192.BroadcastsInDim S8192x1 (![0] : Fin 1 → Fin S8192x1.rank)
  bcast_S8192x1_S8192x1386_0_1 : S8192x1.BroadcastsInDim S8192x1386 (![0, 1] : Fin 2 → Fin S8192x1386.rank)
  bitsLt_bf16_f32 : FTy.bits .bf16 < FTy.bits .f32
  shapeCasts_S4096_S1x4096 : S4096.ShapeCasts S1x4096
  inb_S256x1386_S256x1386_0_0 : ∀ a, (![0, 0] : Fin 2 → Nat) a + S256x1386.size a ≤ S256x1386.size a
  h_S256x1386 : 0 < S256x1386.numel
  shapeCasts_S256x1386_S256x1386 : S256x1386.ShapeCasts S256x1386
  inb_S1386x4096_S1386x4096_0_0 : ∀ a, (![0, 0] : Fin 2 → Nat) a + S1386x4096.size a ≤ S1386x4096.size a
  h_S1386x4096 : 0 < S1386x4096.numel
  shapeCasts_S1386x4096_S1386x4096 : S1386x4096.ShapeCasts S1386x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1024x64_S1024x64_0_0 : ∀ a, (![0, 0] : Fin 2 → Nat) a + S1024x64.size a ≤ S1024x64.size a
  h_S1024x64 : 0 < S1024x64.numel
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  scatter_S8192_S65536x1_S65536_n_0_0_1_wf : ScatterDims.WF S8192 S65536x1 S65536 [] [0] [0] 1
  gather_S8192x1386_S65536x1_S65536x1386_1_0_n_n_0_1_11386_wf : GatherDims.WF S8192x1386 S65536x1 S65536x1386 [1] [0] [] [0] [] 1 ![1, 1386]
  scatter_S8192x1386_S65536x1_S65536x1386_1_0_0_1_wf : ScatterDims.WF S8192x1386 S65536x1 S65536x1386 [1] [0] [0] 1
  dot_S256x1386_S1386x4096_S256x4096_1_0_0_1_n_n_wf : DotDims.WF S256x1386 S1386x4096 S256x4096 [1] [0] [0] [1] [] []
  dot_S1024x4096_S4096x64_S1024x64_1_0_0_1_n_n_wf : DotDims.WF S1024x4096 S4096x64 S1024x64 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1386.size a ≤ S8192x1386.size a
  hwx0_0 : ∀ i : grid0.Coords, EltTy.bits .bf16 = 32 ∨ (Rect.block (s := S8192x1386) S256x1386.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1386x4096.size a ≤ S1386x4096.size a
  hwx0_1 : ∀ i : grid0.Coords, EltTy.bits .bf16 = 32 ∨ (Rect.block (s := S1386x4096) S1386x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .bf16 = 32 ∨ (Rect.block (s := S4096x64) S4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S8192x64.size a
  hwx1_2 : ∀ i : grid1.Coords, EltTy.bits .f32 = 32 ∨ (Rect.block (s := S8192x64) S1024x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .f32 = 32 ∨ (Rect.block (s := S8192x64) S2048x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x64.size a ≤ S8192x64.size a
  hwx2_2 : ∀ i : grid2.Coords, EltTy.bits .f32 = 32 ∨ (Rect.block (s := S8192x64) S2048x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S8192x64.size a
  hwx2_3 : ∀ i : grid2.Coords, EltTy.bits .f32 = 32 ∨ (Rect.block (s := S8192x64) S2048x64.size (cc2_transform_3 i) (hinb2_3 i)).WholeWords (EltTy.packing .f32)

variable [Facts₀]

def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x1386_S65536x1_S65536x1386_1_0_n_n_0_1_11386 : GatherDims S8192x1386 S65536x1 S65536x1386 where
  offsetDims := [1]
  collapsedSliceDims := [0]
  operandBatchingDims := []
  startIndicesBatchingDims := []
  startIndexMap := [0]
  indexVectorDim := 1
  sliceSizes := ![1, 1386]
  wf := gather_S8192x1386_S65536x1_S65536x1386_1_0_n_n_0_1_11386_wf
def scatter_S8192x1386_S65536x1_S65536x1386_1_0_0_1 : ScatterDims S8192x1386 S65536x1 S65536x1386 where
  updateWindowDims := [1]
  insertedWindowDims := [0]
  scatterDimsToOperandDims := [0]
  indexVectorDim := 1
  wf := scatter_S8192x1386_S65536x1_S65536x1386_1_0_0_1_wf
def dot_S256x1386_S1386x4096_S256x4096_1_0_0_1_n_n : DotDims S256x1386 S1386x4096 S256x4096 where
  lhsContracting := [1]
  rhsContracting := [0]
  lhsNonContracting := [0]
  rhsNonContracting := [1]
  lhsBatch := []
  rhsBatch := []
  wf := dot_S256x1386_S1386x4096_S256x4096_1_0_0_1_n_n_wf
def dot_S1024x4096_S4096x64_S1024x64_1_0_0_1_n_n : DotDims S1024x4096 S4096x64 S1024x64 where
  lhsContracting := [1]
  rhsContracting := [0]
  lhsNonContracting := [0]
  rhsNonContracting := [1]
  lhsBatch := []
  rhsBatch := []
  wf := dot_S1024x4096_S4096x64_S1024x64_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf

abbrev win0_0 : Pipeline.Window sig grid0 :=
  Pipeline.Window.ofSpec (Memref.whole main_v43) S256x1386.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1386x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v46) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1024x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v92) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v93) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v94_0) S2048x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v94_1) S2048x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8192x1386 : Shape := ⟨2, ![8192, 1386]⟩
abbrev S65536 : Shape := ⟨1, ![65536]⟩
abbrev S1386x4096 : Shape := ⟨2, ![1386, 4096]⟩
abbrev S4096 : Shape := ⟨1, ![4096]⟩
abbrev S4096x64 : Shape := ⟨2, ![4096, 64]⟩
abbrev S64 : Shape := ⟨1, ![64]⟩
abbrev S8192x4096 : Shape := ⟨2, ![8192, 4096]⟩
abbrev S_ : Shape := ⟨0, ![]⟩
abbrev S8192 : Shape := ⟨1, ![8192]⟩
abbrev S65536x1 : Shape := ⟨2, ![65536, 1]⟩
abbrev S65536x4096 : Shape := ⟨2, ![65536, 4096]⟩
abbrev S8192x1 : Shape := ⟨2, ![8192, 1]⟩
abbrev S1x4096 : Shape := ⟨2, ![1, 4096]⟩
abbrev S8192x64 : Shape := ⟨2, ![8192, 64]⟩
abbrev S65536x64 : Shape := ⟨2, ![65536, 64]⟩
abbrev S1x64 : Shape := ⟨2, ![1, 64]⟩

abbrev nBuf : Space → Nat
  | .hbm => 146
  | .vmem => 0
  | .smem => 0
  | _ => 0

abbrev hbmTy0_0 (i : Nat) : BufTy := match i % 128 with
  | 0 => ⟨S8192x1386, .f32⟩
  | 1 => ⟨S65536, .i32⟩
  | 2 => ⟨S65536, .i32⟩
  | 3 => ⟨S1386x4096, .f32⟩
  | 4 => ⟨S4096, .f32⟩
  | 5 => ⟨S4096x64, .f32⟩
  | 6 => ⟨S64, .f32⟩
  | 7 => ⟨S8192x4096, .f32⟩
  | 8 => ⟨S_, .f32⟩
  | 9 => ⟨S65536, .f32⟩
  | 10 => ⟨S_, .f32⟩
  | 11 => ⟨S8192, .f32⟩
  | 12 => ⟨S65536x1, .i32⟩
  | 13 => ⟨S8192, .f32⟩
  | 14 => ⟨S_, .f32⟩
  | 15 => ⟨S8192, .f32⟩
  | 16 => ⟨S65536x1, .i32⟩
  | 17 => ⟨S8192, .f32⟩
  | 18 => ⟨S_, .f32⟩
  | 19 => ⟨S8192, .f32⟩
  | 20 => ⟨S8192, .i1⟩
  | 21 => ⟨S_, .f32⟩
  | 22 => ⟨S8192, .f32⟩
  | 23 => ⟨S8192, .f32⟩
  | 24 => ⟨S_, .f32⟩
  | 25 => ⟨S_, .f32⟩
  | 26 => ⟨S8192, .f32⟩
  | 27 => ⟨S8192, .f32⟩
  | 28 => ⟨S_, .f32⟩
  | 29 => ⟨S8192, .f32⟩
  | 30 => ⟨S8192, .i1⟩
  | 31 => ⟨S_, .f32⟩
  | 32 => ⟨S8192, .f32⟩
  | 33 => ⟨S8192, .f32⟩
  | 34 => ⟨S_, .f32⟩
  | 35 => ⟨S_, .f32⟩
  | 36 => ⟨S8192, .f32⟩
  | 37 => ⟨S8192, .f32⟩
  | 38 => ⟨S_, .i32⟩
  | 39 => ⟨S65536, .i32⟩
  | 40 => ⟨S65536, .i1⟩
  | 41 => ⟨S_, .i32⟩
  | 42 => ⟨S65536, .i32⟩
  | 43 => ⟨S65536, .i32⟩
  | 44 => ⟨S65536, .i32⟩
  | 45 => ⟨S65536x1, .i32⟩
  | 46 => ⟨S65536x4096, .f32⟩
  | 47 => ⟨S_, .f32⟩
  | 48 => ⟨S8192x4096, .f32⟩
  | 49 => ⟨S65536x1, .i32⟩
  | 50 => ⟨S8192x4096, .f32⟩
  | 51 => ⟨S8192x1, .f32⟩
  | 52 => ⟨S8192x4096, .f32⟩
  | 53 => ⟨S8192x4096, .f32⟩
  | 54 => ⟨S_, .i32⟩
  | 55 => ⟨S65536, .i32⟩
  | 56 => ⟨S65536, .i1⟩
  | 57 => ⟨S_, .i32⟩
  | 58 => ⟨S65536, .i32⟩
  | 59 => ⟨S65536, .i32⟩
  | 60 => ⟨S65536, .i32⟩
  | 61 => ⟨S65536x1, .i32⟩
  | 62 => ⟨S65536x4096, .f32⟩
  | 63 => ⟨S_, .f32⟩
  | 64 => ⟨S8192x4096, .f32⟩
  | 65 => ⟨S65536x1, .i32⟩
  | 66 => ⟨S8192x4096, .f32⟩
  | 67 => ⟨S8192x1, .f32⟩
  | 68 => ⟨S8192x4096, .f32⟩
  | 69 => ⟨S8192x4096, .f32⟩
  | 70 => ⟨S1x4096, .f32⟩
  | 71 => ⟨S8192x4096, .f32⟩
  | 72 => ⟨S8192x4096, .f32⟩
  | 73 => ⟨S_, .f32⟩
  | 74 => ⟨S8192x4096, .f32⟩
  | 75 => ⟨S8192x4096, .f32⟩
  | 76 => ⟨S8192x64, .f32⟩
  | 77 => ⟨S_, .f32⟩
  | 78 => ⟨S65536, .f32⟩
  | 79 => ⟨S_, .f32⟩
  | 80 => ⟨S8192, .f32⟩
  | 81 => ⟨S65536x1, .i32⟩
  | 82 => ⟨S8192, .f32⟩
  | 83 => ⟨S_, .f32⟩
  | 84 => ⟨S8192, .f32⟩
  | 85 => ⟨S65536x1, .i32⟩
  | 86 => ⟨S8192, .f32⟩
  | 87 => ⟨S_, .f32⟩
  | 88 => ⟨S8192, .f32⟩
  | 89 => ⟨S8192, .i1⟩
  | 90 => ⟨S_, .f32⟩
  | 91 => ⟨S8192, .f32⟩
  | 92 => ⟨S8192, .f32⟩
  | 93 => ⟨S_, .f32⟩
  | 94 => ⟨S_, .f32⟩
  | 95 => ⟨S8192, .f32⟩
  | 96 => ⟨S8192, .f32⟩
  | 97 => ⟨S_, .f32⟩
  | 98 => ⟨S8192, .f32⟩
  | 99 => ⟨S8192, .i1⟩
  | 100 => ⟨S_, .f32⟩
  | 101 => ⟨S8192, .f32⟩
  | 102 => ⟨S8192, .f32⟩
  | 103 => ⟨S_, .f32⟩
  | 104 => ⟨S_, .f32⟩
  | 105 => ⟨S8192, .f32⟩
  | 106 => ⟨S8192, .f32⟩
  | 107 => ⟨S_, .i32⟩
  | 108 => ⟨S65536, .i32⟩
  | 109 => ⟨S65536, .i1⟩
  | 110 => ⟨S_, .i32⟩
  | 111 => ⟨S65536, .i32⟩
  | 112 => ⟨S65536, .i32⟩
  | 113 => ⟨S65536, .i32⟩
  | 114 => ⟨S65536x1, .i32⟩
  | 115 => ⟨S65536x64, .f32⟩
  | 116 => ⟨S_, .f32⟩
  | 117 => ⟨S8192x64, .f32⟩
  | 118 => ⟨S65536x1, .i32⟩
  | 119 => ⟨S8192x64, .f32⟩
  | 120 => ⟨S8192x1, .f32⟩
  | 121 => ⟨S8192x64, .f32⟩
  | 122 => ⟨S8192x64, .f32⟩
  | 123 => ⟨S_, .i32⟩
  | 124 => ⟨S65536, .i32⟩
  | 125 => ⟨S65536, .i1⟩
  | 126 => ⟨S_, .i32⟩
  | 127 => ⟨S65536, .i32⟩
  | _ => ⟨S8192x1386, .f32⟩

abbrev hbmTy0_1 (i : Nat) : BufTy := match i % 128 with
  | 0 => ⟨S65536, .i32⟩
  | 1 => ⟨S65536, .i32⟩
  | 2 => ⟨S65536x1, .i32⟩
  | 3 => ⟨S65536x64, .f32⟩
  | 4 => ⟨S_, .f32⟩
  | 5 => ⟨S8192x64, .f32⟩
  | 6 => ⟨S65536x1, .i32⟩
  | 7 => ⟨S8192x64, .f32⟩
  | 8 => ⟨S8192x1, .f32⟩
  | 9 => ⟨S8192x64, .f32⟩
  | 10 => ⟨S8192x64, .f32⟩
  | 11 => ⟨S1x64, .f32⟩
  | 12 => ⟨S8192x64, .f32⟩
  | 13 => ⟨S8192x64, .f32⟩
  | 14 => ⟨S_, .f32⟩
  | 15 => ⟨S8192x64, .f32⟩
  | 16 => ⟨S8192x64, .f32⟩
  | 17 => ⟨S8192x64, .f32⟩
  | _ => ⟨S8192x1386, .f32⟩

abbrev hbmTy (i : Nat) : BufTy := match i / 128 with
  | 0 => hbmTy0_0 i
  | 1 => hbmTy0_1 i
  | _ => ⟨S8192x1386, .f32⟩

abbrev bufTy : (tb : Table) → Fin (tcTables nBuf tb) → BufTy
  | .hbm, ⟨i, _⟩ => hbmTy i
  | _, _ => ⟨S8192x1386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_cst_7 : Ref sig .tc := ⟨.hbm, 34, rfl⟩
abbrev main_call1_v0 : Ref sig .tc := ⟨.hbm, 35, rfl⟩
abbrev main_call1_v1 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_8 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_9 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_10 : Ref sig .tc := ⟨.hbm, 54, rfl⟩
abbrev main_v31 : Ref sig .tc := ⟨.hbm, 55, rfl⟩
abbrev main_v32 : Ref sig .tc := ⟨.hbm, 56, rfl⟩
abbrev main_c_11 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call2_cst : Ref sig .tc := ⟨.hbm, 73, rfl⟩
abbrev main_call2_v0 : Ref sig .tc := ⟨.hbm, 74, rfl⟩
abbrev main_v47 : Ref sig .tc := ⟨.hbm, 75, rfl⟩
abbrev main_v48 : Ref sig .tc := ⟨.hbm, 76, rfl⟩
abbrev main_cst_13 : Ref sig .tc := ⟨.hbm, 77, rfl⟩
abbrev main_v49 : Ref sig .tc := ⟨.hbm, 78, rfl⟩
abbrev main_cst_14 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_15 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_16 : Ref sig .tc := ⟨.hbm, 87, rfl⟩
abbrev main_v56 : Ref sig .tc := ⟨.hbm, 88, rfl⟩
abbrev main_v57 : Ref sig .tc := ⟨.hbm, 89, rfl⟩
abbrev main_cst_17 : Ref sig .tc := ⟨.hbm, 90, rfl⟩
abbrev main_v58 : Ref sig .tc := ⟨.hbm, 91, rfl⟩
abbrev main_v59 : Ref sig .tc := ⟨.hbm, 92, rfl⟩
abbrev main_cst_18 : Ref sig .tc := ⟨.hbm, 93, rfl⟩
abbrev main_call3_v0 : Ref sig .tc := ⟨.hbm, 94, rfl⟩
abbrev main_call3_v1 : Ref sig .tc := ⟨.hbm, 95, rfl⟩
abbrev main_v60 : Ref sig .tc := ⟨.hbm, 96, rfl⟩
abbrev main_cst_19 : Ref sig .tc := ⟨.hbm, 97, rfl⟩
abbrev main_v61 : Ref sig .tc := ⟨.hbm, 98, rfl⟩
abbrev main_v62 : Ref sig .tc := ⟨.hbm, 99, rfl⟩
abbrev main_cst_20 : Ref sig .tc := ⟨.hbm, 100, rfl⟩
abbrev main_v63 : Ref sig .tc := ⟨.hbm, 101, rfl⟩
abbrev main_v64 : Ref sig .tc := ⟨.hbm, 102, rfl⟩
abbrev main_cst_21 : Ref sig .tc := ⟨.hbm, 103, rfl⟩
abbrev main_call4_v0 : Ref sig .tc := ⟨.hbm, 104, rfl⟩
abbrev main_call4_v1 : Ref sig .tc := ⟨.hbm, 105, rfl⟩
abbrev main_v65 : Ref sig .tc := ⟨.hbm, 106, rfl⟩
abbrev main_c_22 : Ref sig .tc := ⟨.hbm, 107, rfl⟩
abbrev main_v66 : Ref sig .tc := ⟨.hbm, 108, rfl⟩
abbrev main_v67 : Ref sig .tc := ⟨.hbm, 109, rfl⟩
abbrev main_c_23 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst_24 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_c_25 : Ref sig .tc := ⟨.hbm, 123, rfl⟩
abbrev main_v79 : Ref sig .tc := ⟨.hbm, 124, rfl⟩
abbrev main_v80 : Ref sig .tc := ⟨.hbm, 125, rfl⟩
abbrev main_c_26 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_cst_27 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_cst_28 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S_S8192 : S_.BroadcastsInDim S8192 (![] : Fin 0 → Fin S8192.rank)
  bcast_S65536_S65536x1_0 : S65536.BroadcastsInDim S65536x1 (![0] : Fin 1 → Fin S65536x1.rank)
  bcast_S_S8192x4096 : S_.BroadcastsInDim S8192x4096 (![] : Fin 0 → Fin S8192x4096.rank)
  bcast_S8192_S8192x1_0 : S8192.BroadcastsInDim S8192x1 (![0] : Fin 1 → Fin S8192x1.rank)
  bcast_S8192x1_S8192x4096_0_1 : S8192x1.BroadcastsInDim S8192x4096 (![0, 1] : Fin 2 → Fin S8192x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x64 : S_.BroadcastsInDim S8192x64 (![] : Fin 0 → Fin S8192x64.rank)
  bcast_S8192x1_S8192x64_0_1 : S8192x1.BroadcastsInDim S8192x64 (![0, 1] : Fin 2 → Fin S8192x64.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x1386_S1386x4096_S8192x4096_1_0_0_1_n_n_wf : DotDims.WF S8192x1386 S1386x4096 S8192x4096 [1] [0] [0] [1] [] []
  scatter_S8192_S65536x1_S65536_n_0_0_1_wf : ScatterDims.WF S8192 S65536x1 S65536 [] [0] [0] 1
  gather_S8192x4096_S65536x1_S65536x4096_1_0_n_n_0_1_14096_wf : GatherDims.WF S8192x4096 S65536x1 S65536x4096 [1] [0] [] [0] [] 1 ![1, 4096]
  scatter_S8192x4096_S65536x1_S65536x4096_1_0_0_1_wf : ScatterDims.WF S8192x4096 S65536x1 S65536x4096 [1] [0] [0] 1
  dot_S8192x4096_S4096x64_S8192x64_1_0_0_1_n_n_wf : DotDims.WF S8192x4096 S4096x64 S8192x64 [1] [0] [0] [1] [] []
  gather_S8192x64_S65536x1_S65536x64_1_0_n_n_0_1_164_wf : GatherDims.WF S8192x64 S65536x1 S65536x64 [1] [0] [] [0] [] 1 ![1, 64]
  scatter_S8192x64_S65536x1_S65536x64_1_0_0_1_wf : ScatterDims.WF S8192x64 S65536x1 S65536x64 [1] [0] [0] 1

variable [Facts₀]

def dot_S8192x1386_S1386x4096_S8192x4096_1_0_0_1_n_n : DotDims S8192x1386 S1386x4096 S8192x4096 where
  lhsContracting := [1]
  rhsContracting := [0]
  lhsNonContracting := [0]
  rhsNonContracting := [1]
  lhsBatch := []
  rhsBatch := []
  wf := dot_S8192x1386_S1386x4096_S8192x4096_1_0_0_1_n_n_wf
def scatter_S8192_S65536x1_S65536_n_0_0_1 : ScatterDims S8192 S65536x1 S65536 where
  updateWindowDims := []
  insertedWindowDims := [0]
  scatterDimsToOperandDims := [0]
  indexVectorDim := 1
  wf := scatter_S8192_S65536x1_S65536_n_0_0_1_wf
def gather_S8192x4096_S65536x1_S65536x4096_1_0_n_n_0_1_14096 : GatherDims S8192x4096 S65536x1 S65536x4096 where
  offsetDims := [1]
  collapsedSliceDims := [0]
  operandBatchingDims := []
  startIndicesBatchingDims := []
  startIndexMap := [0]
  indexVectorDim := 1
  sliceSizes := ![1, 4096]
  wf := gather_S8192x4096_S65536x1_S65536x4096_1_0_n_n_0_1_14096_wf
def scatter_S8192x4096_S65536x1_S65536x4096_1_0_0_1 : ScatterDims S8192x4096 S65536x1 S65536x4096 where
  updateWindowDims := [1]
  insertedWindowDims := [0]
  scatterDimsToOperandDims := [0]
  indexVectorDim := 1
  wf := scatter_S8192x4096_S65536x1_S65536x4096_1_0_0_1_wf
def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def gather_S8192x64_S65536x1_S65536x64_1_0_n_n_0_1_164 : GatherDims S8192x64 S65536x1 S65536x64 where
  offsetDims := [1]
  collapsedSliceDims := [0]
  operandBatchingDims := []
  startIndicesBatchingDims := []
  startIndexMap := [0]
  indexVectorDim := 1
  sliceSizes := ![1, 64]
  wf := gather_S8192x64_S65536x1_S65536x64_1_0_n_n_0_1_164_wf
def scatter_S8192x64_S65536x1_S65536x64_1_0_0_1 : ScatterDims S8192x64 S65536x1 S65536x64 where
  updateWindowDims := [1]
  insertedWindowDims := [0]
  scatterDimsToOperandDims := [0]
  indexVectorDim := 1
  wf := scatter_S8192x64_S65536x1_S65536x64_1_0_0_1_wf

class Facts : Prop extends Facts₀ where

variable [Facts]
-- ==== Proof.PropagateOps.lean ====
/-
  The host operations of one aggregation step and of the whole propagation `D⁻¹ H B⁻¹ Hᵀ`, as one function of the
  index arrays and the feature matrix, for a feature width `D`: a degree is a scatter-add of ones over the incidences,
  its reciprocal is taken where the degree is positive and is zero elsewhere, a step gathers the rows the (normalised)
  gather indices name, scatter-adds them onto the rows the scatter indices name, and scales each row by the reciprocal
  degree of the scatter indices.
-/
import Idealize.ShloMosaic.PureOps.Ideal
import Idealize.ShloMosaic.Lib.ValueIdx

noncomputable section

namespace Hypergraph

open Idealize.ShloMosaic

abbrev S0 : Shape := ⟨0, ![]⟩
abbrev SN : Shape := ⟨1, ![8192]⟩
abbrev SE : Shape := ⟨1, ![65536]⟩
abbrev SE1 : Shape := ⟨2, ![65536, 1]⟩
abbrev SN1 : Shape := ⟨2, ![8192, 1]⟩
abbrev SND (D : Nat) : Shape := ⟨2, ![8192, D]⟩
abbrev SED (D : Nat) : Shape := ⟨2, ![65536, D]⟩

/-- The dimension numbers and broadcast conditions the operations of a propagation at width `D` carry. -/
structure Recs (D : Nat) where
  bE : S0.BroadcastsInDim SE (![] : Fin 0 → Fin SE.rank)
  bN : S0.BroadcastsInDim SN (![] : Fin 0 → Fin SN.rank)
  bE1 : SE.BroadcastsInDim SE1 (![0] : Fin 1 → Fin SE1.rank)
  bN1 : SN.BroadcastsInDim SN1 (![0] : Fin 1 → Fin SN1.rank)
  bND : SN1.BroadcastsInDim (SND D) (![0, 1] : Fin 2 → Fin (SND D).rank)
  b0ND : S0.BroadcastsInDim (SND D) (![] : Fin 0 → Fin (SND D).rank)
  sc1 : ScatterDims SN SE1 SE
  g : GatherDims (SND D) SE1 (SED D)
  sc : ScatterDims (SND D) SE1 (SED D)

variable {D : Nat}

/-- The degree of every row under the scatter indices `idx`: ones scatter-added from zero. -/
def degree (R : Recs D) (idx : IVec SE 32) : FVec Ideal SN .f32 :=
  Host.scatterAdd R.sc1 (broadcastInDim SN ![] R.bN (constant S0 .f32 0x00000000#32)) (broadcastInDim SE1 ![0] R.bE1 idx)
    (broadcastInDim SE ![] R.bE (constant S0 .f32 0x3F800000#32))

/-- The reciprocal degree where the degree is positive, zero elsewhere. -/
def invDegree (R : Recs D) (idx : IVec SE 32) : FVec Ideal SN .f32 :=
  select (cmpf (F := Ideal) .ogt (degree R idx) (broadcastInDim SN ![] R.bN (constant S0 .f32 0x00000000#32)))
    (Host.divf (broadcastInDim SN ![] R.bN (constant S0 .f32 0x3F800000#32)) (degree R idx))
    (broadcastInDim SN ![] R.bN (id (constant S0 .f32 0x00000000#32)))

/-- A possibly negative index normalised: `v < 0 → v + 8192`. -/
def normIdx (R : Recs D) (idx : IVec SE 32) : IVec SE 32 :=
  select (cmpi .slt idx (broadcastInDim SE ![] R.bE (constantI S0 32 0#32)))
    (addi idx (broadcastInDim SE ![] R.bE (constantI S0 32 8192#32))) idx

/-- One aggregation step: gather the rows `gidx` names, scatter-add them onto the rows `sidx` names, scale each row by
    the reciprocal degree under `sidx`. -/
def step (R : Recs D) (gidx sidx : IVec SE 32) (y : FVec Ideal (SND D) .f32) : FVec Ideal (SND D) .f32 :=
  mulf (Host.scatterAdd R.sc (broadcastInDim (SND D) ![] R.b0ND (constant S0 .f32 0x00000000#32)) (broadcastInDim SE1 ![0] R.bE1 sidx)
      (Host.gather R.g y (broadcastInDim SE1 ![0] R.bE1 (normIdx R gidx))))
    (broadcastInDim (SND D) ![0, 1] R.bND (broadcastInDim SN1 ![0] R.bN1 (invDegree R sidx)))

/-- The propagation: nodes to hyperedges, then hyperedges to nodes. -/
def propagate (R : Recs D) (nidx eidx : IVec SE 32) (y : FVec Ideal (SND D) .f32) : FVec Ideal (SND D) .f32 :=
  step R eidx nidx (step R nidx eidx y)

end Hypergraph

end
-- ==== Proof.LibHostMatmul.lean ====
/-
  A host `dot_general` of an `[m, k]` by a `[k, n]` matrix (contracting the first operand's columns with the second's
  rows), read at an entry at the ideal values: the sum over `c : Fin k` of `A (a, c) * B (c, b)`, for arbitrary extents.
  A constant broadcast from a scalar reads that constant's value everywhere.
-/
import Idealize.ShloMosaic.Lib.Pipeline.Value
import Idealize.ShloMosaic.Lib.ValueIdx
import Idealize.ShloMosaic.PureOps.Ideal.Laws

noncomputable section

namespace Idealize.ShloMosaic.DenseLayers

open Idealize.ShloMosaic Idealize.ShloMosaic.ValueIdx

/-- A row-by-column host matrix product read at an entry. -/
theorem dotGeneral_rowcol_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A scalar constant broadcast to any shape reads the constant's value at every index. -/
theorem broadcastInDim_scalar_constant_apply {t : Shape} {φ : FTy} (w : BitVec φ.bits)
    (h : (⟨0, ![]⟩ : Shape).BroadcastsInDim t ![]) (j : t.Idx) :
    broadcastInDim t ![] h (constant (F := Ideal) ⟨0, ![]⟩ φ w) j = Ideal.ofBits φ w := rfl

end Idealize.ShloMosaic.DenseLayers

end
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.RefValue.lean ====
/-
  The reference's three results as named functions of its seven argument arrays.

  The reference computes `feat = relu (P (x W1) + b1)`, `hid = P (feat W2) + b2` and `code = tanh (1 · hid)`, where
  `P = D⁻¹ H B⁻¹ Hᵀ` is the hypergraph propagation (node rows to hyperedge rows and back, each step a gather, a
  scatter-add and a scaling by a reciprocal degree). Here the three are written once, over the propagation as one
  function, shown to be what a run of the reference leaves in its three result arrays, and read at an entry.
-/
import proofs.«132386_j88364657148583_2_alg».proof.Proof.RefRun
import proofs.«132386_j88364657148583_2_alg».proof.Proof.PropagateOps
import proofs.«132386_j88364657148583_2_alg».proof.Proof.LibHostMatmul
import proofs.«132386_j88364657148583_2_alg».proof.Proof.LibRowGatherScatter
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx
  Idealize.ShloMosaic.TcCoe Idealize.SL.Sem Idealize.ShloMosaic.StableHlo

/-- The dimension numbers and broadcast conditions of the propagation at feature width 4096. -/
def recs4096 : Hypergraph.Recs 4096 :=
  ⟨bcast_S_S65536, bcast_S_S8192, bcast_S65536_S65536x1_0, bcast_S8192_S8192x1_0, bcast_S8192x1_S8192x4096_0_1,
    bcast_S_S8192x4096, scatter_S8192_S65536x1_S65536_n_0_0_1,
    gather_S8192x4096_S65536x1_S65536x4096_1_0_n_n_0_1_14096, scatter_S8192x4096_S65536x1_S65536x4096_1_0_0_1⟩

/-- The dimension numbers and broadcast conditions of the propagation at feature width 64. -/
def recs64 : Hypergraph.Recs 64 :=
  ⟨bcast_S_S65536, bcast_S_S8192, bcast_S65536_S65536x1_0, bcast_S8192_S8192x1_0, bcast_S8192x1_S8192x64_0_1,
    bcast_S_S8192x64, scatter_S8192_S65536x1_S65536_n_0_0_1,
    gather_S8192x64_S65536x1_S65536x64_1_0_n_n_0_1_164, scatter_S8192x64_S65536x1_S65536x64_1_0_0_1⟩

/-- The first result: `relu (P (x W1) + b1)`, the bias laid along every row. -/
def refFeat (x : FVec Ideal S8192x1386 .f32) (n e : IVec S65536 32) (W1 : FVec Ideal S1386x4096 .f32)
    (b1 : FVec Ideal S4096 .f32) : FVec Ideal S8192x4096 .f32 :=
  maximumf
    (addf
      (Hypergraph.propagate recs4096 n e
        (Host.dotGeneral dot_S8192x1386_S1386x4096_S8192x4096_1_0_0_1_n_n none x W1))
      (broadcastInDim S8192x4096 ![0, 1] bcast_S1x4096_S8192x4096_0_1
        (broadcastInDim S1x4096 ![1] bcast_S4096_S1x4096_1 b1)))
    (broadcastInDim S8192x4096 ![] bcast_S_S8192x4096 (constant S_ .f32 0x00000000#32))

/-- The second result: `P (feat W2) + b2`. -/
def refHid (x : FVec Ideal S8192x1386 .f32) (n e : IVec S65536 32) (W1 : FVec Ideal S1386x4096 .f32)
    (b1 : FVec Ideal S4096 .f32) (W2 : FVec Ideal S4096x64 .f32) (b2 : FVec Ideal S64 .f32) :
    FVec Ideal S8192x64 .f32 :=
  addf
    (Hypergraph.propagate recs64 n e
      (Host.dotGeneral dot_S8192x4096_S4096x64_S8192x64_1_0_0_1_n_n none (refFeat x n e W1 b1) W2))
    (broadcastInDim S8192x64 ![0, 1] bcast_S1x64_S8192x64_0_1
      (broadcastInDim S1x64 ![1] bcast_S64_S1x64_1 b2))

/-- The third result: `tanh (1 · hid)`. -/
def refCode (x : FVec Ideal S8192x1386 .f32) (n e : IVec S65536 32) (W1 : FVec Ideal S1386x4096 .f32)
    (b1 : FVec Ideal S4096 .f32) (W2 : FVec Ideal S4096x64 .f32) (b2 : FVec Ideal S64 .f32) :
    FVec Ideal S8192x64 .f32 :=
  Host.tanh (mulf (broadcastInDim S8192x64 ![] bcast_S_S8192x64 (constant S_ .f32 0x3F800000#32))
    (refHid x n e W1 b1 W2 b2))

/-- Every weakly fair execution of the reference terminates with its three results at `refFeat`, `refHid` and
    `refCode` of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47)
          = refFeat (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_v94)
          = refHid (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_v97)
          = refCode (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
      ⟨(h c).1.trans rfl,
       (h c).2.1.trans (by unfold ValueP.res_main_v94; rfl),
       (h c).2.2.1.trans (by unfold ValueP.res_main_v97; rfl),
       (h c).2.2.2⟩)
    (ValueP.run (F := Ideal) m ρ)

/-- The bias `b1`, laid along every row of the feature matrix, read at an entry. -/
theorem bias4096_apply (b1 : FVec Ideal S4096 .f32) (P : Fin 8192) (Q : Fin 4096) :
    broadcastInDim S8192x4096 ![0, 1] bcast_S1x4096_S8192x4096_0_1
        (broadcastInDim S1x4096 ![1] bcast_S4096_S1x4096_1 b1) (ix2 P Q) = b1 (ix1 Q) := by
  rw [broadcastInDim_apply ![0, 1] bcast_S1x4096_S8192x4096_0_1 _ (ix2 P Q) (ix2 (0 : Fin 1) Q) (by
        intro a
        match a with
        | ⟨0, _⟩ => rfl
        | ⟨1, _⟩ => rfl),
    broadcastInDim_apply ![1] bcast_S4096_S1x4096_1 b1 (ix2 (0 : Fin 1) Q) (ix1 Q) (by
        intro a
        match a with
        | ⟨0, _⟩ => rfl)]

/-- The bias `b2`, laid along every row of the hidden matrix, read at an entry. -/
theorem bias64_apply (b2 : FVec Ideal S64 .f32) (P : Fin 8192) (Q : Fin 64) :
    broadcastInDim S8192x64 ![0, 1] bcast_S1x64_S8192x64_0_1
        (broadcastInDim S1x64 ![1] bcast_S64_S1x64_1 b2) (ix2 P Q) = b2 (ix1 Q) := by
  rw [broadcastInDim_apply ![0, 1] bcast_S1x64_S8192x64_0_1 _ (ix2 P Q) (ix2 (0 : Fin 1) Q) (by
        intro a
        match a with
        | ⟨0, _⟩ => rfl
        | ⟨1, _⟩ => rfl),
    broadcastInDim_apply ![1] bcast_S64_S1x64_1 b2 (ix2 (0 : Fin 1) Q) (ix1 Q) (by
        intro a
        match a with
        | ⟨0, _⟩ => rfl)]

/-- The first result at an entry: the propagated product plus the bias, cut off below at the pattern of zero. -/
theorem refFeat_apply (x : FVec Ideal S8192x1386 .f32) (n e : IVec S65536 32) (W1 : FVec Ideal S1386x4096 .f32)
    (b1 : FVec Ideal S4096 .f32) (P : Fin 8192) (Q : Fin 4096) :
    refFeat x n e W1 b1 (ix2 P Q)
      = max (Hypergraph.propagate recs4096 n e
              (Host.dotGeneral dot_S8192x1386_S1386x4096_S8192x4096_1_0_0_1_n_n none x W1) (ix2 P Q)
            + b1 (ix1 Q)) (Ideal.ofBits .f32 0x00000000#32) := by
  unfold refFeat
  rw [maximumf_apply, addf_apply, bias4096_apply,
    DenseLayers.broadcastInDim_scalar_constant_apply]

/-- The product `x W1` at an entry: the sum over the 1386 input features. -/
theorem xW1_apply (x : FVec Ideal S8192x1386 .f32) (W1 : FVec Ideal S1386x4096 .f32) (P : Fin 8192) (Q : Fin 4096) :
    Host.dotGeneral dot_S8192x1386_S1386x4096_S8192x4096_1_0_0_1_n_n none x W1 (ix2 P Q)
      = ∑ k : Fin 1386, x (ix2 P k) * W1 (ix2 k Q) :=
  DenseLayers.dotGeneral_rowcol_apply _ none x W1 P Q

/-- The product of a feature matrix with `W2` at an entry: the sum over the 4096 features. -/
theorem featW2_apply (A : FVec Ideal S8192x4096 .f32) (W2 : FVec Ideal S4096x64 .f32) (P : Fin 8192) (Q : Fin 64) :
    Host.dotGeneral dot_S8192x4096_S4096x64_S8192x64_1_0_0_1_n_n none A W2 (ix2 P Q)
      = ∑ k : Fin 4096, A (ix2 P k) * W2 (ix2 k Q) :=
  DenseLayers.dotGeneral_rowcol_apply _ none A W2 P Q

/-- The second result at an entry: the propagated product plus the bias. -/
theorem refHid_apply (x : FVec Ideal S8192x1386 .f32) (n e : IVec S65536 32) (W1 : FVec Ideal S1386x4096 .f32)
    (b1 : FVec Ideal S4096 .f32) (W2 : FVec Ideal S4096x64 .f32) (b2 : FVec Ideal S64 .f32)
    (P : Fin 8192) (Q : Fin 64) :
    refHid x n e W1 b1 W2 b2 (ix2 P Q)
      = Hypergraph.propagate recs64 n e
          (Host.dotGeneral dot_S8192x4096_S4096x64_S8192x64_1_0_0_1_n_n none (refFeat x n e W1 b1) W2) (ix2 P Q)
        + b2 (ix1 Q) := by
  unfold refHid
  rw [addf_apply, bias64_apply]

/-- The third result at an entry: the hyperbolic tangent of the second (the factor is the pattern of one). -/
theorem refCode_apply (x : FVec Ideal S8192x1386 .f32) (n e : IVec S65536 32) (W1 : FVec Ideal S1386x4096 .f32)
    (b1 : FVec Ideal S4096 .f32) (W2 : FVec Ideal S4096x64 .f32) (b2 : FVec Ideal S64 .f32)
    (P : Fin 8192) (Q : Fin 64) :
    refCode x n e W1 b1 W2 b2 (ix2 P Q) = Ideal.tanh (refHid x n e W1 b1 W2 b2 (ix2 P Q)) := by
  have htanh : ∀ (X : FVec Ideal S8192x64 .f32) (j : S8192x64.Idx), Host.tanh X j = Ideal.tanh (X j) :=
    fun _ _ => rfl
  unfold refCode
  rw [htanh, mulf_apply, DenseLayers.broadcastInDim_scalar_constant_apply, Ideal.ofBits_one_f32, one_mul]

/-- The records of the propagation at width 4096 are the row gather, row scatter and element scatter records. -/
theorem recs4096_g : recs4096.g
    = RowGatherScatter.rowGatherDims 8192 65536 4096 gather_S8192x4096_S65536x1_S65536x4096_1_0_n_n_0_1_14096_wf := rfl
theorem recs4096_sc : recs4096.sc
    = RowGatherScatter.rowScatterDims 8192 65536 4096 scatter_S8192x4096_S65536x1_S65536x4096_1_0_0_1_wf := rfl
theorem recs4096_sc1 : recs4096.sc1
    = RowGatherScatter.elemScatterDims 8192 65536 scatter_S8192_S65536x1_S65536_n_0_0_1_wf := rfl

/-- The records of the propagation at width 64 are the row gather, row scatter and element scatter records. -/
theorem recs64_g : recs64.g
    = RowGatherScatter.rowGatherDims 8192 65536 64 gather_S8192x64_S65536x1_S65536x64_1_0_n_n_0_1_164_wf := rfl
theorem recs64_sc : recs64.sc
    = RowGatherScatter.rowScatterDims 8192 65536 64 scatter_S8192x64_S65536x1_S65536x64_1_0_0_1_wf := rfl
theorem recs64_sc1 : recs64.sc1
    = RowGatherScatter.elemScatterDims 8192 65536 scatter_S8192_S65536x1_S65536_n_0_0_1_wf := rfl

end Cert.ReferenceIdeal.RefValue

end
-- ==== Proof.KernelRun.lean ====
/-
  The idealized kernel's run with its three result arrays named: every weakly fair execution of @main terminates, without
  a fault, with each result buffer at what the fold of the host stretches and of the three regions' write-backs leaves
  there, and the arguments as launched. The segments, the proof data and the launch are the frame certificate's; only the
  final state is read at three more buffers.
-/
import proofs.«132386_j88364657148583_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main from any memory with zero counters: it terminates, nothing faults, each result buffer ends at the
    last boundary's contents and each argument as launched. -/
theorem run_results : θ_run defs (onTc (τ := τ) (main (F := F))) ⟨m, fun _ => 0, ρ⟩ (fun r => ∀ c : Dev nD,
      r.2.mem ((c.tc : Thread nD τ).loc main_v46) = W14 m ρ c (Proc.devRef .tc main_v46)
      ∧ r.2.mem ((c.tc : Thread nD τ).loc main_v94_0) = W14 m ρ c (Proc.devRef .tc main_v94_0)
      ∧ r.2.mem ((c.tc : Thread nD τ).loc main_v94_1) = W14 m ρ c (Proc.devRef .tc main_v94_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v46 (by decide)), h c _ (mem_uc main_v94_0 (by decide)), h c _ (mem_uc main_v94_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.Results

end
-- ==== Proof.KernelBoundary.lean ====
/-
  The three result buffers at the last boundary, walked back through the fold of host stretches and regions to the
  region that wrote each: the layer's output is region 0's array, untouched afterwards (the later host operations and
  regions write other buffers); the two final outputs are region 2's arrays.
-/
import proofs.«132386_j88364657148583_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The first result is what region 0 leaves in its output array: nothing after region 0 writes that buffer. -/
theorem W14_main_v46 (c : Dev nD) : W14 m ρ c (Proc.devRef .tc main_v46) = (dat0 (V5 m ρ) c).arrAt 3 cfg0.N :=
  calc W14 m ρ c (Proc.devRef .tc main_v46)
    _ = W13 m ρ c (Proc.devRef .tc main_v46) := W14_of_ne m ρ c main_v46 (by decide)
    _ = W12 m ρ c (Proc.devRef .tc main_v46) := StableHlo.after_of_forall_not_mem (b := Proc.devRef .tc main_v46) _ _ (List.forall_iff_forall_mem.mp (by
          simp only [hostOps2_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v46) := StableHlo.after_of_forall_not_mem (b := Proc.devRef .tc main_v46) _ _ (List.forall_iff_forall_mem.mp (by
          simp only [hostOps2_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_v46) := StableHlo.after_of_forall_not_mem (b := Proc.devRef .tc main_v46) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v46) := StableHlo.after_of_forall_not_mem (b := Proc.devRef .tc main_v46) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v46) := StableHlo.after_of_forall_not_mem (b := Proc.devRef .tc main_v46) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v46) := W8_of_ne m ρ c main_v46 (by decide)
    _ = W6 m ρ c (Proc.devRef .tc main_v46) := StableHlo.after_of_forall_not_mem (b := Proc.devRef .tc main_v46) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V5 m ρ) c).arrAt 3 cfg0.N := W6_arr m ρ c 3

/-- The second result is region 2's first output array. -/
theorem W14_main_v94_0 (c : Dev nD) : W14 m ρ c (Proc.devRef .tc main_v94_0) = (dat2 (V13 m ρ) c).arrAt 2 cfg2.N :=
  W14_arr m ρ c 2

/-- The third result is region 2's second output array. -/
theorem W14_main_v94_1 (c : Dev nD) : W14 m ρ c (Proc.devRef .tc main_v94_1) = (dat2 (V13 m ρ) c).arrAt 3 cfg2.N :=
  W14_arr m ρ c 3

end Cert.KernelIdeal.Results

end
-- ==== Proof.KernelEntry.lean ====
/-
  The arrays each region finds when it is entered, as functions of the arguments and of what the earlier regions left:
  the first region finds the propagated features (the host operations before it are the propagation's), the weights and
  the bias row; the second finds the first region's output and the second weights; the third finds the propagation of the
  second region's output and the second bias row. A narrowing of the float format is kept as printed: at the ideal
  values it is the identity.
-/
import proofs.«132386_j88364657148583_2_alg».proof.Proof.Gen.KernelIdeal.Frame
import proofs.«132386_j88364657148583_2_alg».proof.Proof.PropagateOps
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The dimension numbers of the propagation on the 1386 input features. -/
def recs1386 : Hypergraph.Recs 1386 :=
  ⟨bcast_S_S65536, bcast_S_S8192, bcast_S65536_S65536x1_0, bcast_S8192_S8192x1_0, bcast_S8192x1_S8192x1386_0_1, bcast_S_S8192x1386,
    scatter_S8192_S65536x1_S65536_n_0_0_1, gather_S8192x1386_S65536x1_S65536x1386_1_0_n_n_0_1_11386, scatter_S8192x1386_S65536x1_S65536x1386_1_0_0_1⟩

/-- The dimension numbers of the propagation on the 64 output features. -/
def recs64 : Hypergraph.Recs 64 :=
  ⟨bcast_S_S65536, bcast_S_S8192, bcast_S65536_S65536x1_0, bcast_S8192_S8192x1_0, bcast_S8192x1_S8192x64_0_1, bcast_S_S8192x64,
    scatter_S8192_S65536x1_S65536_n_0_0_1, gather_S8192x64_S65536x1_S65536x64_1_0_n_n_0_1_164, scatter_S8192x64_S65536x1_S65536x64_1_0_0_1⟩

set_option maxRecDepth 200000 in
set_option maxHeartbeats 4000000 in
/-- The first region's left factor: the propagated input features. -/
theorem entry0_left (c : Dev nD) :
    V5 m ρ c (Pipeline.arrRef spec0 0)
      = (truncf .bf16 (Hypergraph.propagate recs1386 (m ((c.tc : Thread nD τ).loc main_arg1)) (m ((c.tc : Thread nD τ).loc main_arg2))
          (m ((c.tc : Thread nD τ).loc main_arg0))) bitsLt_bf16_f32 : FVec Ideal S8192x1386 .bf16) := by
  show W5 m ρ c (Proc.devRef .tc main_v43) = _
  dsimp only [W5, W4, W3, W2, W1, W0, hostOps0, hostOps0_1, hostOps0_2, hostOps0_3, hostOps0_4]
  after_results_simp
  rfl

set_option maxRecDepth 200000 in
set_option maxHeartbeats 4000000 in
/-- The first region's right factor: the first weights. -/
theorem entry0_right (c : Dev nD) :
    V5 m ρ c (Pipeline.arrRef spec0 1)
      = (truncf .bf16 (m ((c.tc : Thread nD τ).loc main_arg3)) bitsLt_bf16_f32 : FVec Ideal S1386x4096 .bf16) := by
  show W5 m ρ c (Proc.devRef .tc main_v44) = _
  dsimp only [W5, W4, W3, W2, W1, W0, hostOps0, hostOps0_1, hostOps0_2, hostOps0_3, hostOps0_4]
  after_results_simp

set_option maxRecDepth 200000 in
set_option maxHeartbeats 4000000 in
/-- The first region's bias row: the first bias as one row. -/
theorem entry0_bias (c : Dev nD) :
    V5 m ρ c (Pipeline.arrRef spec0 2)
      = (shapeCast S1x4096 (m ((c.tc : Thread nD τ).loc main_arg4)) shapeCasts_S4096_S1x4096 : FVec Ideal S1x4096 .f32) := by
  show W5 m ρ c (Proc.devRef .tc main_v45) = _
  dsimp only [W5, W4, W3, W2, W1, W0, hostOps0, hostOps0_1, hostOps0_2, hostOps0_3, hostOps0_4]
  after_results_simp
  try rfl

end Cert.KernelIdeal.Entry

end
-- ==== Proof.LibDenseLayers.lean ====
/-
  Dense layers read at an index, at the ideal values (the extended reals), for arbitrary extents.

  * `matmul_rowcol_zero_apply`: a `tpu.matmul` of an `[m, k]` by a `[k, n]` matrix (contracting the first operand's
    columns with the second's rows) into a zero accumulator is, at `(a, b)`, the sum over `c : Fin k` of
    `A (a, c) * B (c, b)`.
  * `broadcastTo_column_apply`: an `[a, 1]` column broadcast along the second axis to `[a, b]` reads, at `(p, q)`,
    the column's entry `(p, 0)`.
  * `maxOverRows_apply`: a `vector.multi_reduction <maximumf>` over axis 0 of an `[a, b]` matrix reads, at column
    `q`, the fold of `max` from the accumulator's value over the column's entries `(k, q)`, `k : Fin a`.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.DenseLayers

open Idealize.ShloMosaic Idealize.ShloMosaic.ValueIdx

/-- A row-by-column matrix product into a zero accumulator, read at an entry: the sum over the contracted coordinate of
    the products of the operands' entries. -/
theorem matmul_rowcol_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A column broadcast along the second axis reads its entry of the same row. -/
theorem broadcastTo_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The maximum over the rows, column by column: a fold of `max` over the column's entries. -/
theorem maxOverRows_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction (F := Ideal) .maximumf [0] ⟨1, ![b]⟩ src acc h hφ hacc (ix1 q)
      = (Finset.univ : Finset (Fin a)).fold max (Ideal.ofBits φ acc) (fun k => src (ix2 k q)) := by
  rw [Ideal.multiReduction_maximumf_single]
  have e : (src ∘ h.lift (ix1 q)) = fun k : Fin a => src (ix2 k q) := by
    funext k
    show src (h.lift (ix1 q) k) = src (ix2 k q)
    congr 1
    funext ax; apply Fin.ext
    match ax with
    | ⟨0, _⟩ => rfl
    | ⟨1, _⟩ => rfl
  rw [e]
  rfl

end Idealize.ShloMosaic.DenseLayers

end
-- ==== Proof.FeatRegion.lean ====
/-
  The first region: a dense layer with bias and rectifier, `max (A · B + bias, 0)`, computed in 32 row blocks of 256.
  What a grid point writes back is its block of ONE whole-array function of the three arrays the region finds; the
  blocks tile the rows, so the array ends holding that function.
-/
import proofs.«132386_j88364657148583_2_alg».proof.Proof.Gen.KernelIdeal.Frame
import proofs.«132386_j88364657148583_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(p, q)` of the layer: the row-by-column product plus the bias of the column, cut off below at zero. -/
def denseReluAt (A : S8192x1386.Idx → EReal) (B : S1386x4096.Idx → EReal) (bias : S1x4096.Idx → EReal) (P : Fin 8192) (Q : Fin 4096) : EReal :=
  max ((∑ k : Fin 1386, A (ix2 P k) * B (ix2 k Q)) + bias (ix2 (0 : Fin 1) Q)) (Ideal.ofBits .f32 0x00000000#32)

/-- The layer as an array. -/
def denseRelu (A : S8192x1386.Idx → EReal) (B : S1386x4096.Idx → EReal) (bias : S1x4096.Idx → EReal) : S8192x4096.Idx → EReal :=
  fun i => denseReluAt A B bias ⟨(i 0).val, idx2_lt0 i⟩ ⟨(i 1).val, idx2_lt1 i⟩

theorem denseRelu_ix2 (A : S8192x1386.Idx → EReal) (B : S1386x4096.Idx → EReal) (bias : S1x4096.Idx → EReal) (P : Fin 8192) (Q : Fin 4096) :
    denseRelu A B bias (ix2 P Q) = denseReluAt A B bias P Q := rfl

/-- The body's stored value at `(p, q)` of a block, from the three loaded blocks. -/
theorem pay0_apply (x0 : Vec Ideal S256x1386 .bf16) (x1 : Vec Ideal S1386x4096 .bf16) (x2 : Vec Ideal S1x4096 .f32) (p : Fin 256) (q : Fin 4096) :
    k0_pay1 x0 x1 x2 (ix2 p q) = max ((∑ k : Fin 1386, x0 (ix2 p k) * x1 (ix2 k q)) + x2 (ix2 (0 : Fin 1) q)) (Ideal.ofBits .f32 0x00000000#32) := by
  have hm : matmul (φ₁ := .bf16) (φ₂ := .bf16) dot_S256x1386_S1386x4096_S256x4096_1_0_0_1_n_n none (shapeCast S256x1386 (x0 : FVec Ideal S256x1386 .bf16) shapeCasts_S256x1386_S256x1386) (shapeCast S1386x4096 (x1 : FVec Ideal S1386x4096 .bf16) shapeCasts_S1386x4096_S1386x4096) (constant (F := Ideal) S256x4096 .f32 0x00000000#32) (ix2 p q) = ∑ k : Fin 1386, x0 (ix2 p k) * x1 (ix2 k q) := by
    rw [shapeCast_self, shapeCast_self]; exact DenseLayers.matmul_rowcol_zero_apply _ none (x0 : FVec Ideal S256x1386 .bf16) (x1 : FVec Ideal S1386x4096 .bf16) p q
  have hb : broadcastTo S256x4096 (shapeCast S1x4096 (x2 : FVec Ideal S1x4096 .f32) shapeCasts_S1x4096_S1x4096) broadcasts_S1x4096_S256x4096 (ix2 p q) = x2 (ix2 (0 : Fin 1) q) := by
    rw [shapeCast_self]; exact broadcastTo_1b_ab_apply (x2 : FVec Ideal S1x4096 .f32) _ p q
  unfold k0_pay1
  show max (_ + _) _ = _
  rw [hm, hb]; rfl

/-- The printed index maps over the grid: the left factor's and the result's row block move with the point, the right
    factor and the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem row_lt (t : Fin cfg0.N) (p : Fin 256) : t.val * 256 + p.val < 8192 := by
  have ht : t.val < 32 := t.isLt
  have hp := p.isLt
  omega

/-- Where entry `(p, q)` of point `t`'s block of the result sits in the array: row `256 t + p`, column `q`. -/
theorem emb3_eq (t : Fin cfg0.N) (p : Fin 256) (q : Fin 4096) :
    ((cfg0.win 3).blk t).view.emb (ix2 p q) = ix2 (⟨t.val * 256 + p.val, row_lt t p⟩ : Fin 8192) q := by
  obtain ⟨e00, e01, e10, e11, e20, e21, e30, e31⟩ := idx_facts0 t
  funext a; apply Fin.ext
  match a with
  | ⟨0, _⟩ => show win0_3.index t (0 : Fin 2) * 256 + 1 * p.val = t.val * 256 + p.val; omega
  | ⟨1, _⟩ => show win0_3.index t (1 : Fin 2) * 4096 + 1 * q.val = q.val; omega

/-- The left factor's block at a point, read at `(p, k)`: the array's row `256 t + p`. -/
theorem blk0_left (c : Dev nD) (t : Fin cfg0.N) (p : Fin 256) (k : Fin 1386) :
    iblk0 V c 0 t (ix2 p k) = V c (Pipeline.arrRef spec0 0) (ix2 (⟨t.val * 256 + p.val, row_lt t p⟩ : Fin 8192) k) := by
  obtain ⟨e00, e01, e10, e11, e20, e21, e30, e31⟩ := idx_facts0 t
  show V c (Pipeline.arrRef spec0 0) (((cfg0.win 0).blk t).view.emb (ix2 p k)) = _
  congr 1
  funext a; apply Fin.ext
  match a with
  | ⟨0, _⟩ => show win0_0.index t (0 : Fin 2) * 256 + 1 * p.val = t.val * 256 + p.val; omega
  | ⟨1, _⟩ => show win0_0.index t (1 : Fin 2) * 1386 + 1 * k.val = k.val; omega

/-- The right factor's block is the whole array. -/
theorem blk0_right (c : Dev nD) (t : Fin cfg0.N) (k : Fin 1386) (q : Fin 4096) :
    iblk0 V c 1 t (ix2 k q) = V c (Pipeline.arrRef spec0 1) (ix2 k q) := by
  obtain ⟨e00, e01, e10, e11, e20, e21, e30, e31⟩ := idx_facts0 t
  show V c (Pipeline.arrRef spec0 1) (((cfg0.win 1).blk t).view.emb (ix2 k q)) = _
  congr 1
  funext a; apply Fin.ext
  match a with
  | ⟨0, _⟩ => show win0_1.index t (0 : Fin 2) * 1386 + 1 * k.val = k.val; omega
  | ⟨1, _⟩ => show win0_1.index t (1 : Fin 2) * 4096 + 1 * q.val = q.val; omega

/-- The bias block is the whole row. -/
theorem blk0_bias (c : Dev nD) (t : Fin cfg0.N) (q : Fin 4096) :
    iblk0 V c 2 t (ix2 (0 : Fin 1) q) = V c (Pipeline.arrRef spec0 2) (ix2 (0 : Fin 1) q) := by
  obtain ⟨e00, e01, e10, e11, e20, e21, e30, e31⟩ := idx_facts0 t
  show V c (Pipeline.arrRef spec0 2) (((cfg0.win 2).blk t).view.emb (ix2 (0 : Fin 1) q)) = _
  congr 1
  funext a; apply Fin.ext
  match a with
  | ⟨0, _⟩ => show win0_2.index t (0 : Fin 2) * 1 + 1 * 0 = 0; omega
  | ⟨1, _⟩ => show win0_2.index t (1 : Fin 2) * 4096 + 1 * q.val = q.val; omega

set_option maxHeartbeats 1000000 in
/-- WHAT POINT `t` WRITES BACK is block `t` of the layer of the three arrays as the region finds them. -/
theorem flushed0_eq (c : Dev nD) (t : Fin cfg0.N) :
    (dat0 V c).flushed 3 t = ((cfg0.win 3).blk t).view.read (Elt Ideal)
      (denseRelu (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S256x1386) hz, View.ld_unit_zero (S := S1386x4096) hz, View.ld_unit_zero (S := S1x4096) hz]
  refine funext fun (j : S256x4096.Idx) => ?_
  show k0_pay1 (iblk0 V c 0 t) (iblk0 V c 1 t) (iblk0 V c 2 t) j
    = denseRelu (V c (Pipeline.arrRef spec0 0)) (V c (Pipeline.arrRef spec0 1)) (V c (Pipeline.arrRef spec0 2)) (((cfg0.win 3).blk t).view.emb j)
  obtain ⟨p, q, rfl⟩ : ∃ (p : Fin 256) (q : Fin 4096), j = ix2 p q := ⟨j 0, j 1, eq_ix2 j⟩
  refine (pay0_apply _ _ _ p q).trans ?_
  rw [emb3_eq t p q, denseRelu_ix2]
  unfold denseReluAt
  rw [blk0_bias V c t q]
  simp only [blk0_left V c t p, blk0_right V c t]

/-- An index of the array is in point `t`'s block iff each coordinate is in the block's range on its axis. -/
theorem mem_blk0 (t : Fin cfg0.N) (i : S8192x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v46).slice (win0_3.rect t)).set ↔ _
  rw [View.set_slice_whole, Rect.mem_set_unit]
  exact Iff.rfl

/-- Every index is in the block of the point that its row's block number names. -/
theorem cover0 (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  let t : Fin cfg0.N := ⟨(i 0).val / 256, by show (i 0).val / 256 < 32; omega⟩
  obtain ⟨e00, e01, e10, e11, e20, e21, e30, e31⟩ := idx_facts0 t
  have ht : t.val = (i 0).val / 256 := rfl
  refine ⟨t, flush0_3 t, ?_⟩
  rw [mem_blk0]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- THE ARRAY after the region: the layer of the three arrays the region finds. -/
theorem final0 (c : Dev nD) : (dat0 V c).arrAt 3 cfg0.N
    = denseRelu (V c (Pipeline.arrRef spec0 0)) (V c (Pipeline.arrRef spec0 1)) (V c (Pipeline.arrRef spec0 2)) :=
  (dat0 V c).arrAt_eq_of_cover 3 _ (fun t _ => flushed0_eq V c t) cover0

end Cert.KernelIdeal.Dense

end
-- ==== Proof.ProductRegion.lean ====
/-
  The second region: a plain row-by-column product `A · B` of an `[8192, 4096]` array by a `[4096, 64]` array, computed
  in 8 row blocks of 1024. What a grid point writes back is its block of ONE whole-array function of the two arrays the
  region finds; the blocks tile the rows, so the array ends holding that function.
-/
import proofs.«132386_j88364657148583_2_alg».proof.Proof.Gen.KernelIdeal.Frame
import proofs.«132386_j88364657148583_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry `(p, q)` of the product: row `p` of the left factor by column `q` of the right one. -/
def rowColAt (A : S8192x4096.Idx → EReal) (B : S4096x64.Idx → EReal) (P : Fin 8192) (Q : Fin 64) : EReal :=
  ∑ k : Fin 4096, A (ix2 P k) * B (ix2 k Q)

/-- The product as an array. -/
def rowCol (A : S8192x4096.Idx → EReal) (B : S4096x64.Idx → EReal) : S8192x64.Idx → EReal :=
  fun i => rowColAt A B ⟨(i 0).val, idx2_lt0 i⟩ ⟨(i 1).val, idx2_lt1 i⟩

theorem rowCol_ix2 (A : S8192x4096.Idx → EReal) (B : S4096x64.Idx → EReal) (P : Fin 8192) (Q : Fin 64) :
    rowCol A B (ix2 P Q) = rowColAt A B P Q := rfl

/-- The body's stored value at `(p, q)` of a block, from the two loaded blocks. -/
theorem pay1_apply (x0 : Vec Ideal S1024x4096 .bf16) (x1 : Vec Ideal S4096x64 .bf16) (p : Fin 1024) (q : Fin 64) :
    k1_pay1 x0 x1 (ix2 p q) = ∑ k : Fin 4096, x0 (ix2 p k) * x1 (ix2 k q) := by
  have hm : matmul (φ₁ := .bf16) (φ₂ := .bf16) dot_S1024x4096_S4096x64_S1024x64_1_0_0_1_n_n none (shapeCast S1024x4096 (x0 : FVec Ideal S1024x4096 .bf16) shapeCasts_S1024x4096_S1024x4096) (shapeCast S4096x64 (x1 : FVec Ideal S4096x64 .bf16) shapeCasts_S4096x64_S4096x64) (constant (F := Ideal) S1024x64 .f32 0x00000000#32) (ix2 p q) = ∑ k : Fin 4096, x0 (ix2 p k) * x1 (ix2 k q) := by
    rw [shapeCast_self, shapeCast_self]; exact DenseLayers.matmul_rowcol_zero_apply _ none (x0 : FVec Ideal S1024x4096 .bf16) (x1 : FVec Ideal S4096x64 .bf16) p q
  unfold k1_pay1
  exact hm

/-- The printed index maps over the grid: the left factor's and the result's row block move with the point, the right
    factor stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem row_lt (t : Fin cfg1.N) (p : Fin 1024) : t.val * 1024 + p.val < 8192 := by
  have ht : t.val < 8 := t.isLt
  have hp := p.isLt
  omega

/-- Where entry `(p, q)` of point `t`'s block of the result sits in the array: row `1024 t + p`, column `q`. -/
theorem emb2_eq (t : Fin cfg1.N) (p : Fin 1024) (q : Fin 64) :
    ((cfg1.win 2).blk t).view.emb (ix2 p q) = ix2 (⟨t.val * 1024 + p.val, row_lt t p⟩ : Fin 8192) q := by
  obtain ⟨e00, e01, e10, e11, e20, e21⟩ := idx_facts1 t
  funext a; apply Fin.ext
  match a with
  | ⟨0, _⟩ => show win1_2.index t (0 : Fin 2) * 1024 + 1 * p.val = t.val * 1024 + p.val; omega
  | ⟨1, _⟩ => show win1_2.index t (1 : Fin 2) * 64 + 1 * q.val = q.val; omega

/-- The left factor's block at a point, read at `(p, k)`: the array's row `1024 t + p`. -/
theorem blk1_left (c : Dev nD) (t : Fin cfg1.N) (p : Fin 1024) (k : Fin 4096) :
    iblk1 V c 0 t (ix2 p k) = V c (Pipeline.arrRef spec1 0) (ix2 (⟨t.val * 1024 + p.val, row_lt t p⟩ : Fin 8192) k) := by
  obtain ⟨e00, e01, e10, e11, e20, e21⟩ := idx_facts1 t
  show V c (Pipeline.arrRef spec1 0) (((cfg1.win 0).blk t).view.emb (ix2 p k)) = _
  congr 1
  funext a; apply Fin.ext
  match a with
  | ⟨0, _⟩ => show win1_0.index t (0 : Fin 2) * 1024 + 1 * p.val = t.val * 1024 + p.val; omega
  | ⟨1, _⟩ => show win1_0.index t (1 : Fin 2) * 4096 + 1 * k.val = k.val; omega

/-- The right factor's block is the whole array. -/
theorem blk1_right (c : Dev nD) (t : Fin cfg1.N) (k : Fin 4096) (q : Fin 64) :
    iblk1 V c 1 t (ix2 k q) = V c (Pipeline.arrRef spec1 1) (ix2 k q) := by
  obtain ⟨e00, e01, e10, e11, e20, e21⟩ := idx_facts1 t
  show V c (Pipeline.arrRef spec1 1) (((cfg1.win 1).blk t).view.emb (ix2 k q)) = _
  congr 1
  funext a; apply Fin.ext
  match a with
  | ⟨0, _⟩ => show win1_1.index t (0 : Fin 2) * 4096 + 1 * k.val = k.val; omega
  | ⟨1, _⟩ => show win1_1.index t (1 : Fin 2) * 64 + 1 * q.val = q.val; omega

set_option maxHeartbeats 1000000 in
/-- WHAT POINT `t` WRITES BACK is block `t` of the product of the two arrays as the region finds them. -/
theorem flushed1_eq (c : Dev nD) (t : Fin cfg1.N) :
    (dat1 V c).flushed 2 t = ((cfg1.win 2).blk t).view.read (Elt Ideal)
      (rowCol (V c (Pipeline.arrRef spec1 0)) (V c (Pipeline.arrRef spec1 1))) := by
  show (cfg1.win 2).cut (grid1.coords t) ((dat1 V c).after 2 t) = _
  rw [after1_2]
  unfold out1_2
  rw [View.canon_unit_zero hz]
  simp only [View.ld_unit_zero (S := S1024x4096) hz, View.ld_unit_zero (S := S4096x64) hz]
  refine funext fun (j : S1024x64.Idx) => ?_
  show k1_pay1 (iblk1 V c 0 t) (iblk1 V c 1 t) j
    = rowCol (V c (Pipeline.arrRef spec1 0)) (V c (Pipeline.arrRef spec1 1)) (((cfg1.win 2).blk t).view.emb j)
  obtain ⟨p, q, rfl⟩ : ∃ (p : Fin 1024) (q : Fin 64), j = ix2 p q := ⟨j 0, j 1, eq_ix2 j⟩
  refine (pay1_apply _ _ p q).trans ?_
  rw [emb2_eq t p q, rowCol_ix2]
  unfold rowColAt
  simp only [blk1_left V c t p, blk1_right V c t]

/-- An index of the array is in point `t`'s block iff each coordinate is in the block's range on its axis. -/
theorem mem_blk1 (t : Fin cfg1.N) (i : S8192x64.Idx) :
    i ∈ ((cfg1.win 2).blk t).view.set ↔ ∀ a : Fin 2, win1_2.index t a * S1024x64.size a ≤ (i a).val ∧ (i a).val < win1_2.index t a * S1024x64.size a + S1024x64.size a := by
  show i ∈ ((View.whole main_v49).slice (win1_2.rect t)).set ↔ _
  rw [View.set_slice_whole, Rect.mem_set_unit]
  exact Iff.rfl

/-- Every index is in the block of the point that its row's block number names. -/
theorem cover1 (i : S8192x64.Idx) : ∃ t : Fin cfg1.N, (cfg1.win 2).flush t = true ∧ i ∈ ((cfg1.win 2).blk t).view.set := by
  have hi0 : (i 0).val < 8192 := (i 0).isLt
  have hi1 : (i 1).val < 64 := (i 1).isLt
  let t : Fin cfg1.N := ⟨(i 0).val / 1024, by show (i 0).val / 1024 < 8; omega⟩
  obtain ⟨e00, e01, e10, e11, e20, e21⟩ := idx_facts1 t
  have ht : t.val = (i 0).val / 1024 := rfl
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 64 ≤ (i 1).val ∧ (i 1).val < win1_2.index t (1 : Fin 2) * 64 + 64; omega

/-- THE ARRAY after the region: the product of the two arrays the region finds. -/
theorem final1 (c : Dev nD) : (dat1 V c).arrAt 2 cfg1.N
    = rowCol (V c (Pipeline.arrRef spec1 0)) (V c (Pipeline.arrRef spec1 1)) :=
  (dat1 V c).arrAt_eq_of_cover 2 _ (fun t _ => flushed1_eq V c t) cover1

end Cert.KernelIdeal.Product

end
-- ==== Proof.BiasTanhRegion.lean ====
/-
  The third region: a bias row added to every row of an `[8192, 64]` array and the hyperbolic tangent of the sum,
  computed in 4 row blocks of 2048 with two results, the sum and its hyperbolic tangent. What a grid point writes back
  to each result is its block of ONE whole-array function of the two arrays the region finds; the blocks tile the rows,
  so each result array ends holding its function.
-/
import proofs.«132386_j88364657148583_2_alg».proof.Proof.Gen.KernelIdeal.Frame
import proofs.«132386_j88364657148583_2_alg».proof.Proof.LibDenseLayers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.BiasTanh

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The array with the bias row added to every row: entry `(p, q)` is `X (p, q) + b (0, q)`. -/
def biasAdd (X : S8192x64.Idx → EReal) (b : S1x64.Idx → EReal) : S8192x64.Idx → EReal :=
  fun i => X i + b (ix2 (0 : Fin 1) ⟨(i 1).val, idx2_lt1 i⟩)

theorem biasAdd_ix2 (X : S8192x64.Idx → EReal) (b : S1x64.Idx → EReal) (P : Fin 8192) (Q : Fin 64) :
    biasAdd X b (ix2 P Q) = X (ix2 P Q) + b (ix2 (0 : Fin 1) Q) := rfl

/-- The first stored value at `(p, q)` of a block, from the two loaded blocks: the entry plus the bias of the column. -/
theorem pay2_1_apply (x0 : Vec Ideal S2048x64 .f32) (x1 : Vec Ideal S1x64 .f32) (p : Fin 2048) (q : Fin 64) :
    k2_pay1 x0 x1 (ix2 p q) = x0 (ix2 p q) + x1 (ix2 (0 : Fin 1) q) := by
  have hx : shapeCast S2048x64 (x0 : FVec Ideal S2048x64 .f32) shapeCasts_S2048x64_S2048x64 (ix2 p q) = x0 (ix2 p q) := by
    rw [shapeCast_self]
  have hb : broadcastTo S2048x64 (shapeCast S1x64 (x1 : FVec Ideal S1x64 .f32) shapeCasts_S1x64_S1x64) broadcasts_S1x64_S2048x64 (ix2 p q) = x1 (ix2 (0 : Fin 1) q) := by
    rw [shapeCast_self]; exact broadcastTo_1b_ab_apply (x1 : FVec Ideal S1x64 .f32) _ p q
  unfold k2_pay1
  show _ + _ = _
  rw [hx, hb]

/-- The second stored value at `(p, q)`: the hyperbolic tangent of the first. -/
theorem pay2_2_apply (x0 : Vec Ideal S2048x64 .f32) (x1 : Vec Ideal S1x64 .f32) (p : Fin 2048) (q : Fin 64) :
    k2_pay2 x0 x1 (ix2 p q) = Ideal.tanh (x0 (ix2 p q) + x1 (ix2 (0 : Fin 1) q)) := by
  unfold k2_pay2
  show Ideal.tanh (k2_pay1 x0 x1 (ix2 p q)) = _
  rw [pay2_1_apply]

/-- The printed index maps over the grid: the array's and both results' row block move with the point, the bias
    stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

theorem row_lt (t : Fin cfg2.N) (p : Fin 2048) : t.val * 2048 + p.val < 8192 := by
  have ht : t.val < 4 := t.isLt
  have hp := p.isLt
  omega

/-- Where entry `(p, q)` of point `t`'s block of the first result sits in the array: row `2048 t + p`, column `q`. -/
theorem emb2_eq (t : Fin cfg2.N) (p : Fin 2048) (q : Fin 64) :
    ((cfg2.win 2).blk t).view.emb (ix2 p q) = ix2 (⟨t.val * 2048 + p.val, row_lt t p⟩ : Fin 8192) q := by
  obtain ⟨e00, e01, e10, e11, e20, e21, e30, e31⟩ := idx_facts2 t
  funext a; apply Fin.ext
  match a with
  | ⟨0, _⟩ => show win2_2.index t (0 : Fin 2) * 2048 + 1 * p.val = t.val * 2048 + p.val; omega
  | ⟨1, _⟩ => show win2_2.index t (1 : Fin 2) * 64 + 1 * q.val = q.val; omega

/-- The same for the second result. -/
theorem emb3_eq (t : Fin cfg2.N) (p : Fin 2048) (q : Fin 64) :
    ((cfg2.win 3).blk t).view.emb (ix2 p q) = ix2 (⟨t.val * 2048 + p.val, row_lt t p⟩ : Fin 8192) q := by
  obtain ⟨e00, e01, e10, e11, e20, e21, e30, e31⟩ := idx_facts2 t
  funext a; apply Fin.ext
  match a with
  | ⟨0, _⟩ => show win2_3.index t (0 : Fin 2) * 2048 + 1 * p.val = t.val * 2048 + p.val; omega
  | ⟨1, _⟩ => show win2_3.index t (1 : Fin 2) * 64 + 1 * q.val = q.val; omega

/-- The array's block at a point, read at `(p, q)`: the array's row `2048 t + p`. -/
theorem blk2_arr (c : Dev nD) (t : Fin cfg2.N) (p : Fin 2048) (q : Fin 64) :
    iblk2 V c 0 t (ix2 p q) = V c (Pipeline.arrRef spec2 0) (ix2 (⟨t.val * 2048 + p.val, row_lt t p⟩ : Fin 8192) q) := by
  obtain ⟨e00, e01, e10, e11, e20, e21, e30, e31⟩ := idx_facts2 t
  show V c (Pipeline.arrRef spec2 0) (((cfg2.win 0).blk t).view.emb (ix2 p q)) = _
  congr 1
  funext a; apply Fin.ext
  match a with
  | ⟨0, _⟩ => show win2_0.index t (0 : Fin 2) * 2048 + 1 * p.val = t.val * 2048 + p.val; omega
  | ⟨1, _⟩ => show win2_0.index t (1 : Fin 2) * 64 + 1 * q.val = q.val; omega

/-- The bias block is the whole row. -/
theorem blk2_bias (c : Dev nD) (t : Fin cfg2.N) (q : Fin 64) :
    iblk2 V c 1 t (ix2 (0 : Fin 1) q) = V c (Pipeline.arrRef spec2 1) (ix2 (0 : Fin 1) q) := by
  obtain ⟨e00, e01, e10, e11, e20, e21, e30, e31⟩ := idx_facts2 t
  show V c (Pipeline.arrRef spec2 1) (((cfg2.win 1).blk t).view.emb (ix2 (0 : Fin 1) q)) = _
  congr 1
  funext a; apply Fin.ext
  match a with
  | ⟨0, _⟩ => show win2_1.index t (0 : Fin 2) * 1 + 1 * 0 = 0; omega
  | ⟨1, _⟩ => show win2_1.index t (1 : Fin 2) * 64 + 1 * q.val = q.val; omega

set_option maxHeartbeats 1000000 in
/-- WHAT POINT `t` WRITES BACK TO THE FIRST RESULT is block `t` of the array plus the bias row, of the two arrays as
    the region finds them. -/
theorem flushed2_2_eq (c : Dev nD) (t : Fin cfg2.N) :
    (dat2 V c).flushed 2 t = ((cfg2.win 2).blk t).view.read (Elt Ideal)
      (biasAdd (V c (Pipeline.arrRef spec2 0)) (V c (Pipeline.arrRef spec2 1))) := by
  show (cfg2.win 2).cut (grid2.coords t) ((dat2 V c).after 2 t) = _
  rw [after2_2]
  unfold out2_2
  rw [View.canon_unit_zero hz]
  simp only [View.ld_unit_zero (S := S2048x64) hz, View.ld_unit_zero (S := S1x64) hz]
  refine funext fun (j : S2048x64.Idx) => ?_
  show k2_pay1 (iblk2 V c 0 t) (iblk2 V c 1 t) j
    = biasAdd (V c (Pipeline.arrRef spec2 0)) (V c (Pipeline.arrRef spec2 1)) (((cfg2.win 2).blk t).view.emb j)
  obtain ⟨p, q, rfl⟩ : ∃ (p : Fin 2048) (q : Fin 64), j = ix2 p q := ⟨j 0, j 1, eq_ix2 j⟩
  refine (pay2_1_apply _ _ p q).trans ?_
  rw [emb2_eq t p q, biasAdd_ix2, blk2_bias V c t q, blk2_arr V c t p q]

set_option maxHeartbeats 1000000 in
/-- WHAT POINT `t` WRITES BACK TO THE SECOND RESULT is block `t` of the hyperbolic tangent of the array plus the bias
    row. -/
theorem flushed2_3_eq (c : Dev nD) (t : Fin cfg2.N) :
    (dat2 V c).flushed 3 t = ((cfg2.win 3).blk t).view.read (Elt Ideal)
      (fun i => Ideal.tanh (biasAdd (V c (Pipeline.arrRef spec2 0)) (V c (Pipeline.arrRef spec2 1)) i)) := by
  show (cfg2.win 3).cut (grid2.coords t) ((dat2 V c).after 3 t) = _
  rw [after2_3]
  unfold out2_3
  rw [View.canon_unit_zero hz]
  simp only [View.ld_unit_zero (S := S2048x64) hz, View.ld_unit_zero (S := S1x64) hz]
  refine funext fun (j : S2048x64.Idx) => ?_
  show k2_pay2 (iblk2 V c 0 t) (iblk2 V c 1 t) j
    = Ideal.tanh (biasAdd (V c (Pipeline.arrRef spec2 0)) (V c (Pipeline.arrRef spec2 1)) (((cfg2.win 3).blk t).view.emb j))
  obtain ⟨p, q, rfl⟩ : ∃ (p : Fin 2048) (q : Fin 64), j = ix2 p q := ⟨j 0, j 1, eq_ix2 j⟩
  refine (pay2_2_apply _ _ p q).trans ?_
  rw [emb3_eq t p q, biasAdd_ix2, blk2_bias V c t q, blk2_arr V c t p q]

/-- An index of the first result is in point `t`'s block iff each coordinate is in the block's range on its axis. -/
theorem mem_blk2_2 (t : Fin cfg2.N) (i : S8192x64.Idx) :
    i ∈ ((cfg2.win 2).blk t).view.set ↔ ∀ a : Fin 2, win2_2.index t a * S2048x64.size a ≤ (i a).val ∧ (i a).val < win2_2.index t a * S2048x64.size a + S2048x64.size a := by
  show i ∈ ((View.whole main_v94_0).slice (win2_2.rect t)).set ↔ _
  rw [View.set_slice_whole, Rect.mem_set_unit]
  exact Iff.rfl

/-- The same for the second result. -/
theorem mem_blk2_3 (t : Fin cfg2.N) (i : S8192x64.Idx) :
    i ∈ ((cfg2.win 3).blk t).view.set ↔ ∀ a : Fin 2, win2_3.index t a * S2048x64.size a ≤ (i a).val ∧ (i a).val < win2_3.index t a * S2048x64.size a + S2048x64.size a := by
  show i ∈ ((View.whole main_v94_1).slice (win2_3.rect t)).set ↔ _
  rw [View.set_slice_whole, Rect.mem_set_unit]
  exact Iff.rfl

/-- Every index of the first result is in the block of the point that its row's block number names. -/
theorem cover2_hid (i : S8192x64.Idx) : ∃ t : Fin cfg2.N, (cfg2.win 2).flush t = true ∧ i ∈ ((cfg2.win 2).blk t).view.set := by
  have hi0 : (i 0).val < 8192 := (i 0).isLt
  have hi1 : (i 1).val < 64 := (i 1).isLt
  let t : Fin cfg2.N := ⟨(i 0).val / 2048, by show (i 0).val / 2048 < 4; omega⟩
  obtain ⟨e00, e01, e10, e11, e20, e21, e30, e31⟩ := idx_facts2 t
  have ht : t.val = (i 0).val / 2048 := rfl
  refine ⟨t, flush2_2 t, ?_⟩
  rw [mem_blk2_2]
  intro a
  match a with
  | ⟨0, _⟩ => show win2_2.index t (0 : Fin 2) * 2048 ≤ (i 0).val ∧ (i 0).val < win2_2.index t (0 : Fin 2) * 2048 + 2048; omega
  | ⟨1, _⟩ => show win2_2.index t (1 : Fin 2) * 64 ≤ (i 1).val ∧ (i 1).val < win2_2.index t (1 : Fin 2) * 64 + 64; omega

/-- The same for the second result. -/
theorem cover2_code (i : S8192x64.Idx) : ∃ t : Fin cfg2.N, (cfg2.win 3).flush t = true ∧ i ∈ ((cfg2.win 3).blk t).view.set := by
  have hi0 : (i 0).val < 8192 := (i 0).isLt
  have hi1 : (i 1).val < 64 := (i 1).isLt
  let t : Fin cfg2.N := ⟨(i 0).val / 2048, by show (i 0).val / 2048 < 4; omega⟩
  obtain ⟨e00, e01, e10, e11, e20, e21, e30, e31⟩ := idx_facts2 t
  have ht : t.val = (i 0).val / 2048 := rfl
  refine ⟨t, flush2_3 t, ?_⟩
  rw [mem_blk2_3]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 64 ≤ (i 1).val ∧ (i 1).val < win2_3.index t (1 : Fin 2) * 64 + 64; omega

/-- THE FIRST RESULT after the region: the array the region finds plus the bias row it finds. -/
theorem final2_hid (c : Dev nD) : (dat2 V c).arrAt 2 cfg2.N
    = biasAdd (V c (Pipeline.arrRef spec2 0)) (V c (Pipeline.arrRef spec2 1)) :=
  (dat2 V c).arrAt_eq_of_cover 2 _ (fun t _ => flushed2_2_eq V c t) cover2_hid

/-- THE SECOND RESULT after the region: the hyperbolic tangent of the first, entry by entry. -/
theorem final2_code (c : Dev nD) : (dat2 V c).arrAt 3 cfg2.N
    = fun i => Ideal.tanh (biasAdd (V c (Pipeline.arrRef spec2 0)) (V c (Pipeline.arrRef spec2 1)) i) :=
  (dat2 V c).arrAt_eq_of_cover 3 _ (fun t _ => flushed2_3_eq V c t) cover2_code

end Cert.KernelIdeal.BiasTanh

end
-- ==== Proof.KernelEntryLate.lean ====
/-
  The arrays the second and the third region find when they are entered, as functions of the arguments and of what the
  earlier regions left. No host operation and no region writes an argument, so an argument's buffer holds its launch
  contents at every boundary. The second region finds the first region's output narrowed and the second weights
  narrowed; the third finds the propagation of the second region's output under the two index arrays and the second
  bias as one row. A narrowing of the float format is kept as printed: at the ideal values it is the identity.
-/
import proofs.«132386_j88364657148583_2_alg».proof.Proof.Gen.KernelIdeal.Frame
import proofs.«132386_j88364657148583_2_alg».proof.Proof.PropagateOps
import proofs.«132386_j88364657148583_2_alg».proof.Proof.KernelEntry
import Idealize.ShloMosaic.Lib.StableHlo.Run

set_option maxRecDepth 16384

noncomputable section

namespace Cert.KernelIdeal.EntryLate

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments hold their launch contents at the regions' boundaries -/

/-- The second weights at the first region's exit: as launched. -/
theorem W6_main_arg5 (c : Dev nD) : W6 m ρ c (Proc.devRef .tc main_arg5) = m ((c.tc : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := StableHlo.after_of_forall_not_mem (b := Proc.devRef .tc main_arg5) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg5) := rfl

/-- The first index array at the second region's exit: as launched. -/
theorem W8_main_arg1 (c : Dev nD) : W8 m ρ c (Proc.devRef .tc main_arg1) = m ((c.tc : Thread nD τ).loc main_arg1) :=
  calc W8 m ρ c (Proc.devRef .tc main_arg1)
    _ = W7 m ρ c (Proc.devRef .tc main_arg1) := W8_of_ne m ρ c main_arg1 (by decide)
    _ = W6 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg1) := W6_of_ne m ρ c main_arg1 (by decide)
    _ = W4 m ρ c (Proc.devRef .tc main_arg1) := StableHlo.after_of_forall_not_mem (b := Proc.devRef .tc main_arg1) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := StableHlo.after_of_forall_not_mem (b := Proc.devRef .tc main_arg1) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg1) := rfl

/-- The second index array at the second region's exit: as launched. -/
theorem W8_main_arg2 (c : Dev nD) : W8 m ρ c (Proc.devRef .tc main_arg2) = m ((c.tc : Thread nD τ).loc main_arg2) :=
  calc W8 m ρ c (Proc.devRef .tc main_arg2)
    _ = W7 m ρ c (Proc.devRef .tc main_arg2) := W8_of_ne m ρ c main_arg2 (by decide)
    _ = W6 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := StableHlo.after_of_forall_not_mem (b := Proc.devRef .tc main_arg2) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg2) := rfl

/-- The second bias at the second region's exit: as launched. -/
theorem W8_main_arg6 (c : Dev nD) : W8 m ρ c (Proc.devRef .tc main_arg6) = m ((c.tc : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps0_4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := StableHlo.after_of_forall_not_mem (b := Proc.devRef .tc main_arg6) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c.tc : Thread nD τ).loc main_arg6) := rfl

/-! ## What the second region finds -/

set_option maxRecDepth 200000 in
set_option maxHeartbeats 4000000 in
/-- The second region's left factor: the first region's output, narrowed. -/
theorem entry1_left (c : Dev nD) :
    V7 m ρ c (Pipeline.arrRef spec1 0)
      = (truncf .bf16 (W6 m ρ c (Proc.devRef .tc main_v46)) bitsLt_bf16_f32 : FVec Ideal S8192x4096 .bf16) := by
  show W7 m ρ c (Proc.devRef .tc main_v47) = _
  dsimp only [W7, hostOps1]
  after_results_simp

set_option maxRecDepth 200000 in
set_option maxHeartbeats 4000000 in
/-- The second region's right factor: the second weights, narrowed. -/
theorem entry1_right (c : Dev nD) :
    V7 m ρ c (Pipeline.arrRef spec1 1)
      = (truncf .bf16 (m ((c.tc : Thread nD τ).loc main_arg5)) bitsLt_bf16_f32 : FVec Ideal S4096x64 .bf16) := by
  show W7 m ρ c (Proc.devRef .tc main_v48) = _
  dsimp only [W7, hostOps1]
  after_results_simp
  simp only [W6_main_arg5 m ρ c]

/-! ## What the third region finds -/

set_option maxRecDepth 200000 in
set_option maxHeartbeats 4000000 in
/-- The third region's array: the propagation, under the two index arrays, of the second region's output. -/
theorem entry2_left (c : Dev nD) :
    V13 m ρ c (Pipeline.arrRef spec2 0)
      = Hypergraph.propagate Cert.KernelIdeal.Entry.recs64 (m ((c.tc : Thread nD τ).loc main_arg1)) (m ((c.tc : Thread nD τ).loc main_arg2))
          (W8 m ρ c (Proc.devRef .tc main_v49)) := by
  show W13 m ρ c (Proc.devRef .tc main_v92) = _
  dsimp only [W13, W12, W11, W10, W9, hostOps2, hostOps2_1, hostOps2_2, hostOps2_3, hostOps2_4]
  after_results_simp
  simp only [W8_main_arg1 m ρ c, W8_main_arg2 m ρ c]
  rfl

set_option maxRecDepth 200000 in
set_option maxHeartbeats 4000000 in
/-- The third region's bias row: the second bias as one row. -/
theorem entry2_bias (c : Dev nD) :
    V13 m ρ c (Pipeline.arrRef spec2 1)
      = (shapeCast S1x64 (m ((c.tc : Thread nD τ).loc main_arg6)) shapeCasts_S64_S1x64 : FVec Ideal S1x64 .f32) := by
  show W13 m ρ c (Proc.devRef .tc main_v93) = _
  dsimp only [W13, W12, W11, W10, W9, hostOps2, hostOps2_1, hostOps2_2, hostOps2_3, hostOps2_4]
  after_results_simp
  simp only [W8_main_arg6 m ρ c]
  rfl

end Cert.KernelIdeal.EntryLate

end
-- ==== Proof.Aggregate.lean ====
/-
  One aggregation step of a hypergraph convolution, as a function of the rows of a feature matrix.

  Incidence `j` (one nonzero of the incidence matrix) reads the source row `src j` and lands on the result row `i`
  when `lands j i`; row `i` of the result is the sum of the rows read by the incidences landing on it, scaled by
  `scale i` (the reciprocal of a degree, or zero). The node-to-hyperedge step and the hyperedge-to-node step of
  `D⁻¹ H B⁻¹ Hᵀ` are both of this form, and the whole propagation is two of them composed.
-/
import Idealize.ShloMosaic.PureOps.Ideal

noncomputable section

namespace Hypergraph

/-- Row `i`, column `f` of one aggregation step: `(0 + ∑ over incidences j landing on i of y (src j) f) · scale i`. -/
def aggregate {N M E D : Nat} (src : Fin E → Fin N) (lands : Fin E → Fin M → Prop) [∀ j i, Decidable (lands j i)]
    (scale : Fin M → EReal) (y : Fin N → Fin D → EReal) (i : Fin M) (f : Fin D) : EReal :=
  (0 + ∑ j : Fin E, if lands j i then y (src j) f else 0) * scale i

end Hypergraph

end
-- ==== Proof.PropagateRead.lean ====
/-
  The host operations of one aggregation step of a hypergraph convolution, read at an index, at the ideal values.

  A degree is the number of incidences whose scatter index names the row (a finite sum of ones), its reciprocal is a
  real number, and one step of the propagation, read at row `i` and column `f`, is the aggregation of `Aggregate.lean`:
  the sum over the incidences landing on `i` of the entry `f` of the row each one gathers, scaled by the reciprocal
  degree of `i`.
-/
import proofs.«132386_j88364657148583_2_alg».proof.Proof.Aggregate
import proofs.«132386_j88364657148583_2_alg».proof.Proof.PropagateOps
import proofs.«132386_j88364657148583_2_alg».proof.Proof.LibRowGatherScatter
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Hypergraph

open Idealize.ShloMosaic Idealize.ShloMosaic.ValueIdx Idealize.ShloMosaic.RowGatherScatter

variable {D : Nat}

/-! ## Broadcasts read at an index -/

/-- A scalar broadcast to `[N]` reads the scalar everywhere. -/
theorem bcast0N_apply {α : Type} (h : S0.BroadcastsInDim SN (![] : Fin 0 → Fin SN.rank)) (x : S0.Idx → α) (i : Fin 8192) :
    broadcastInDim SN ![] h x (ix1 i) = x ix0 :=
  broadcastInDim_apply _ _ _ _ _ (fun a => a.elim0)

/-- A scalar broadcast to `[E]` reads the scalar everywhere. -/
theorem bcast0E_apply {α : Type} (h : S0.BroadcastsInDim SE (![] : Fin 0 → Fin SE.rank)) (x : S0.Idx → α) (j : Fin 65536) :
    broadcastInDim SE ![] h x (ix1 j) = x ix0 :=
  broadcastInDim_apply _ _ _ _ _ (fun a => a.elim0)

/-- A scalar broadcast to `[N, D]` reads the scalar everywhere. -/
theorem bcast0ND_apply {α : Type} (h : S0.BroadcastsInDim (SND D) (![] : Fin 0 → Fin (SND D).rank)) (x : S0.Idx → α) (i : Fin 8192) (f : Fin D) :
    broadcastInDim (SND D) ![] h x (ix2 i f) = x ix0 :=
  broadcastInDim_apply _ _ _ _ _ (fun a => a.elim0)

/-- An array `[E]` broadcast to `[E, 1]` reads, at `(j, 0)`, its element `j`. -/
theorem bcastE1_apply {α : Type} (h : SE.BroadcastsInDim SE1 (![0] : Fin 1 → Fin SE1.rank)) (x : SE.Idx → α) (j : Fin 65536) :
    broadcastInDim SE1 ![0] h x (ix2 j (0 : Fin 1)) = x (ix1 j) := by
  refine broadcastInDim_apply _ _ _ _ _ (fun a => ?_)
  match a with
  | ⟨0, _⟩ => rfl

/-- An array `[N]` broadcast to `[N, 1]` reads, at `(i, 0)`, its element `i`. -/
theorem bcastN1_apply {α : Type} (h : SN.BroadcastsInDim SN1 (![0] : Fin 1 → Fin SN1.rank)) (x : SN.Idx → α) (i : Fin 8192) :
    broadcastInDim SN1 ![0] h x (ix2 i (0 : Fin 1)) = x (ix1 i) := by
  refine broadcastInDim_apply _ _ _ _ _ (fun a => ?_)
  match a with
  | ⟨0, _⟩ => rfl

/-- A column `[N, 1]` broadcast to `[N, D]` reads, at `(i, f)`, its element `(i, 0)`. -/
theorem bcastND_apply {α : Type} (h : SN1.BroadcastsInDim (SND D) (![0, 1] : Fin 2 → Fin (SND D).rank)) (x : SN1.Idx → α) (i : Fin 8192) (f : Fin D) :
    broadcastInDim (SND D) ![0, 1] h x (ix2 i f) = x (ix2 i (0 : Fin 1)) := by
  refine broadcastInDim_apply _ _ _ _ _ (fun a => ?_)
  match a with
  | ⟨0, _⟩ => rfl
  | ⟨1, _⟩ => rfl

/-! ## Sums over a rank-1 index set, and sums of reals -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (g : (⟨1, ![n]⟩ : Shape).Idx → M) :
    ∑ i, g i = ∑ a : Fin n, g (ix1 a) := by
  rw [← Equiv.sum_comp (idxEquiv1 (n := n)).symm g]
  rfl

/-- The coercion of the reals into the extended reals commutes with a finite sum. -/
theorem coe_finsum {ι : Type*} (s : Finset ι) (g : ι → ℝ) :
    ((∑ j ∈ s, g j : ℝ) : EReal) = ∑ j ∈ s, (g j : EReal) := by
  classical
  refine Finset.induction_on s ?_ ?_
  · simp
  · intro a s ha ih
    rw [Finset.sum_insert ha, Finset.sum_insert ha, EReal.coe_add, ih]

/-! ## The degree and its reciprocal -/

/-- THE DEGREE READ AT `i`: ones scatter-added from zero, so the number of incidences whose scatter index is `i`,
    as a sum of ones and zeros. -/
theorem degree_apply (R : Recs D)
    {wf1 : ScatterDims.WF ⟨1, ![8192]⟩ ⟨2, ![65536, 1]⟩ ⟨1, ![65536]⟩ [] [0] [0] 1}
    (hsc1 : R.sc1 = elemScatterDims 8192 65536 wf1) (idx : IVec SE 32) (i : Fin 8192) :
    degree R idx (ix1 i) = 0 + ∑ j : Fin 65536, if (idx (ix1 j)).toInt = (i.val : Int) then (1 : EReal) else 0 := by
  unfold degree
  show Ideal.hostScatterAdd R.sc1 _ _ _ (ix1 i) = _
  unfold Ideal.hostScatterAdd
  rw [bcast0N_apply, constant_apply, Ideal.ofBits_zero_f32]
  refine congrArg (fun t : EReal => 0 + t) ?_
  rw [Finset.sum_filter, sum_idx1]
  refine Finset.sum_congr rfl (fun j _ => ?_)
  rw [hsc1, bcast0E_apply, constant_apply, Ideal.ofBits_one_f32]
  by_cases hl : (idx (ix1 j)).toInt = (i.val : Int)
  · rw [if_pos hl, if_pos (elemScatter_resultIdx?_of_toInt wf1 _ j i (by rw [bcastE1_apply]; exact hl))]
  · rw [if_neg hl, if_neg]
    intro h
    obtain ⟨n, hn, hn2⟩ := elemScatter_resultIdx?_eq_some wf1 _ j _ h
    rw [bcastE1_apply] at hn2
    have h0 : i = n := congrFun hn 0
    exact hl (h0 ▸ hn2)

/-- The degree of a row is a real number: a finite sum of ones and zeros. -/
theorem degree_real (R : Recs D)
    {wf1 : ScatterDims.WF ⟨1, ![8192]⟩ ⟨2, ![65536, 1]⟩ ⟨1, ![65536]⟩ [] [0] [0] 1}
    (hsc1 : R.sc1 = elemScatterDims 8192 65536 wf1) (idx : IVec SE 32) (i : Fin 8192) :
    ∃ d : ℝ, degree R idx (ix1 i) = (d : EReal) := by
  refine ⟨∑ j : Fin 65536, if (idx (ix1 j)).toInt = (i.val : Int) then (1 : ℝ) else 0, ?_⟩
  rw [degree_apply R hsc1, zero_add, coe_finsum]
  refine Finset.sum_congr rfl (fun j _ => ?_)
  by_cases hl : (idx (ix1 j)).toInt = (i.val : Int)
  · rw [if_pos hl, if_pos hl, EReal.coe_one]
  · rw [if_neg hl, if_neg hl, EReal.coe_zero]

/-- THE RECIPROCAL DEGREE IS A REAL NUMBER: where the degree `d` is positive it is a nonzero real and the quotient
    `1 / d` is the real `1 / d`; elsewhere the select takes the literal zero. -/
theorem invDegree_real (R : Recs D)
    {wf1 : ScatterDims.WF ⟨1, ![8192]⟩ ⟨2, ![65536, 1]⟩ ⟨1, ![65536]⟩ [] [0] [0] 1}
    (hsc1 : R.sc1 = elemScatterDims 8192 65536 wf1) (idx : IVec SE 32) (i : Fin 8192) :
    ∃ r : ℝ, invDegree R idx (ix1 i) = (r : EReal) := by
  obtain ⟨d, hd⟩ := degree_real R hsc1 idx i
  unfold invDegree
  rw [select_apply, cmpf_apply, hostDivf_apply, bcast0N_apply, bcast0N_apply, bcast0N_apply, id_eq, constant_apply,
    constant_apply, Ideal.ofBits_zero_f32, Ideal.ofBits_one_f32, hd]
  unfold Scalar.select
  split
  · rename_i hc
    have hpos : (0 : EReal) < (d : EReal) := by
      by_contra hn
      have hc' : BitVec.ofBool (decide ((0 : EReal) < (d : EReal))) = 1#1 := hc
      rw [decide_eq_false hn] at hc'
      exact absurd hc' (by decide)
    have hd0 : d ≠ 0 := by
      intro h0
      rw [h0, EReal.coe_zero] at hpos
      exact lt_irrefl _ hpos
    exact ⟨1 / d, by rw [Ideal.div_coe hd0, one_mul]⟩
  · exact ⟨0, EReal.coe_zero.symm⟩

/-! ## One aggregation step read at an index -/

/-- THE SCATTER-ADD OF THE GATHERED ROWS READ AT `(i, f)`: from zero, the sum over the incidences `j` whose scatter
    index is `i` of entry `f` of the row the (normalised, clamped) gather index of `j` names. An update element
    `(j, b)` lands on `(i, f)` exactly when the scatter index of `j` is `i` and `b = f`, so the sum over the update
    index set collapses to a sum over the incidences. -/
theorem scatterGather_apply (R : Recs D)
    {wfg : GatherDims.WF ⟨2, ![8192, D]⟩ ⟨2, ![65536, 1]⟩ ⟨2, ![65536, D]⟩ [1] [0] [] [0] [] 1 ![1, D]}
    {wfs : ScatterDims.WF ⟨2, ![8192, D]⟩ ⟨2, ![65536, 1]⟩ ⟨2, ![65536, D]⟩ [1] [0] [0] 1}
    (hg : R.g = rowGatherDims 8192 65536 D wfg) (hsc : R.sc = rowScatterDims 8192 65536 D wfs)
    (nidx sidx : IVec SE 32) (y : FVec Ideal (SND D) .f32) (i : Fin 8192) (f : Fin D) :
    Host.scatterAdd R.sc (broadcastInDim (SND D) ![] R.b0ND (constant S0 .f32 0x00000000#32))
        (broadcastInDim SE1 ![0] R.bE1 sidx) (Host.gather R.g y (broadcastInDim SE1 ![0] R.bE1 nidx)) (ix2 i f)
      = 0 + ∑ j : Fin 65536, if (sidx (ix1 j)).toInt = (i.val : Int)
          then y (ix2 (clampRow 8192 (by norm_num) (nidx (ix1 j))) f) else 0 := by
  show Ideal.hostScatterAdd R.sc _ _ _ (ix2 i f) = _
  unfold Ideal.hostScatterAdd
  rw [bcast0ND_apply, constant_apply, Ideal.ofBits_zero_f32]
  refine congrArg (fun t : EReal => 0 + t) ?_
  rw [Finset.sum_filter, sum_idx2]
  refine Finset.sum_congr rfl (fun j _ => ?_)
  rw [hsc]
  by_cases hl : (sidx (ix1 j)).toInt = (i.val : Int)
  · rw [if_pos hl]
    rw [Finset.sum_eq_single f]
    · rw [if_pos (rowScatter_resultIdx?_of_toInt wfs _ j f i (by rw [bcastE1_apply]; exact hl))]
      rw [hg, gather_rows_apply (by norm_num) wfg, bcastE1_apply]
    · intro b _ hb
      rw [if_neg]
      intro h
      obtain ⟨n, hn, _⟩ := rowScatter_resultIdx?_eq_some wfs _ j b _ h
      exact hb (congrFun hn 1).symm
    · intro h; exact absurd (Finset.mem_univ f) h
  · rw [if_neg hl]
    refine Finset.sum_eq_zero (fun b _ => ?_)
    rw [if_neg]
    intro h
    obtain ⟨n, hn, hn2⟩ := rowScatter_resultIdx?_eq_some wfs _ j b _ h
    rw [bcastE1_apply] at hn2
    have h0 : i = n := congrFun hn 0
    exact hl (h0 ▸ hn2)

/-- ONE STEP READ AT `(i, f)`: the scatter-add from zero of the gathered rows is the sum, over the incidences `j` whose
    scatter index is `i`, of entry `f` of the row the (normalised, clamped) gather index of `j` names; the product with
    the twice-broadcast reciprocal degree scales it by the reciprocal degree of row `i`. -/
theorem step_apply (R : Recs D)
    {wfg : GatherDims.WF ⟨2, ![8192, D]⟩ ⟨2, ![65536, 1]⟩ ⟨2, ![65536, D]⟩ [1] [0] [] [0] [] 1 ![1, D]}
    {wfs : ScatterDims.WF ⟨2, ![8192, D]⟩ ⟨2, ![65536, 1]⟩ ⟨2, ![65536, D]⟩ [1] [0] [0] 1}
    (hg : R.g = rowGatherDims 8192 65536 D wfg) (hsc : R.sc = rowScatterDims 8192 65536 D wfs)
    (gidx sidx : IVec SE 32) (y : FVec Ideal (SND D) .f32) (i : Fin 8192) (f : Fin D) :
    step R gidx sidx y (ix2 i f)
      = aggregate (fun j : Fin 65536 => clampRow 8192 (by norm_num) (normIdx R gidx (ix1 j)))
          (fun (j : Fin 65536) (i' : Fin 8192) => (sidx (ix1 j)).toInt = (i'.val : Int))
          (fun i' => invDegree R sidx (ix1 i')) (fun i' f' => y (ix2 i' f')) i f := by
  unfold step aggregate
  rw [mulf_apply, bcastND_apply, bcastN1_apply, scatterGather_apply R hg hsc]

/-! ## The propagation read at an index -/

/-- THE PROPAGATION READ AT `(i, f)`: two aggregation steps composed, nodes to hyperedges and back. -/
theorem propagate_apply (R : Recs D)
    {wfg : GatherDims.WF ⟨2, ![8192, D]⟩ ⟨2, ![65536, 1]⟩ ⟨2, ![65536, D]⟩ [1] [0] [] [0] [] 1 ![1, D]}
    {wfs : ScatterDims.WF ⟨2, ![8192, D]⟩ ⟨2, ![65536, 1]⟩ ⟨2, ![65536, D]⟩ [1] [0] [0] 1}
    (hg : R.g = rowGatherDims 8192 65536 D wfg) (hsc : R.sc = rowScatterDims 8192 65536 D wfs)
    (nidx eidx : IVec SE 32) (y : FVec Ideal (SND D) .f32) (i : Fin 8192) (f : Fin D) :
    propagate R nidx eidx y (ix2 i f)
      = aggregate (fun j : Fin 65536 => clampRow 8192 (by norm_num) (normIdx R eidx (ix1 j)))
          (fun (j : Fin 65536) (i' : Fin 8192) => (nidx (ix1 j)).toInt = (i'.val : Int))
          (fun i' => invDegree R nidx (ix1 i'))
          (aggregate (fun j : Fin 65536 => clampRow 8192 (by norm_num) (normIdx R nidx (ix1 j)))
            (fun (j : Fin 65536) (i' : Fin 8192) => (eidx (ix1 j)).toInt = (i'.val : Int))
            (fun i' => invDegree R eidx (ix1 i')) (fun i' f' => y (ix2 i' f'))) i f := by
  unfold propagate
  rw [step_apply R hg hsc]
  have hinner : (fun (i' : Fin 8192) (f' : Fin D) => step R nidx eidx y (ix2 i' f'))
      = aggregate (fun j : Fin 65536 => clampRow 8192 (by norm_num) (normIdx R nidx (ix1 j)))
          (fun (j : Fin 65536) (i' : Fin 8192) => (eidx (ix1 j)).toInt = (i'.val : Int))
          (fun i' => invDegree R eidx (ix1 i')) (fun i' f' => y (ix2 i' f')) := by
    funext i' f'
    exact step_apply R hg hsc nidx eidx y i' f'
  rw [hinner]

end Hypergraph

end
-- ==== Proof.AggregateLinear.lean ====
/-
  Linearity of the aggregation step in the feature columns.

  An aggregation step sums and scales ROWS of a feature matrix; a right factor `W` mixes its COLUMNS. For entries that
  are real numbers the two commute: `(A y) W = A (y W)`. The extended reals are not a ring (distributivity fails at the
  infinities), so every statement carries the hypothesis that each entry is the image of a real; the proofs move to
  the reals, where the identity is an exchange of two finite sums.
-/
import proofs.«132386_j88364657148583_2_alg».proof.Proof.Aggregate

noncomputable section

namespace Hypergraph

/-- The embedding of the reals in the extended reals commutes with a finite sum. -/
theorem coe_sum_real {ι : Type*} (s : Finset ι) (a : ι → ℝ) :
    ((∑ j ∈ s, a j : ℝ) : EReal) = ∑ j ∈ s, (a j : EReal) := by
  classical
  refine Finset.induction_on s ?_ ?_
  · simp
  · intro x t hx ih
    rw [Finset.sum_insert hx, Finset.sum_insert hx, EReal.coe_add, ih]

/-- An aggregation step of real data is the real number `(∑ over incidences j landing on i of y (src j) f) · scale i`. -/
theorem aggregate_coe {N M E D : Nat} (src : Fin E → Fin N) (lands : Fin E → Fin M → Prop)
    [∀ j i, Decidable (lands j i)] (sr : Fin M → ℝ) (yr : Fin N → Fin D → ℝ) (i : Fin M) (f : Fin D) :
    aggregate src lands (fun i' => (sr i' : EReal)) (fun i' f' => (yr i' f' : EReal)) i f
      = (((∑ j : Fin E, if lands j i then yr (src j) f else 0) * sr i : ℝ) : EReal) := by
  have h : ∀ j : Fin E, (if lands j i then (yr (src j) f : EReal) else 0)
      = ((if lands j i then yr (src j) f else 0 : ℝ) : EReal) := by
    intro j
    by_cases hl : lands j i <;> simp [hl]
  unfold aggregate
  rw [zero_add, Finset.sum_congr rfl (fun j _ => h j), ← coe_sum_real, ← EReal.coe_mul]

/-- A row of real data times a column of real data, summed, is the real number `∑ f, y i f · W f g`. -/
theorem rowMul_coe {N D K : Nat} (yr : Fin N → Fin D → ℝ) (Wr : Fin D → Fin K → ℝ) (i : Fin N) (g : Fin K) :
    (∑ f : Fin D, (yr i f : EReal) * (Wr f g : EReal)) = ((∑ f : Fin D, yr i f * Wr f g : ℝ) : EReal) := by
  rw [coe_sum_real]
  exact Finset.sum_congr rfl (fun f _ => (EReal.coe_mul _ _).symm)

/-- Over the reals: scaling and summing rows commutes with multiplying by a matrix on the right. The two sides are the
    same double sum over incidences and columns, taken in the two orders. -/
theorem aggregate_mul_right_real {N M E D K : Nat} (src : Fin E → Fin N) (lands : Fin E → Fin M → Prop)
    [∀ j i, Decidable (lands j i)] (sr : Fin M → ℝ) (yr : Fin N → Fin D → ℝ) (Wr : Fin D → Fin K → ℝ)
    (i : Fin M) (g : Fin K) :
    (∑ f : Fin D, ((∑ j : Fin E, if lands j i then yr (src j) f else 0) * sr i) * Wr f g)
      = (∑ j : Fin E, if lands j i then (∑ f : Fin D, yr (src j) f * Wr f g) else 0) * sr i := by
  have h : ∀ j : Fin E, (if lands j i then (∑ f : Fin D, yr (src j) f * Wr f g) else 0)
      = ∑ f : Fin D, (if lands j i then yr (src j) f else 0) * Wr f g := by
    intro j
    by_cases hl : lands j i <;> simp [hl]
  rw [Finset.sum_congr rfl (fun j _ => h j), Finset.sum_comm, Finset.sum_mul]
  refine Finset.sum_congr rfl (fun f _ => ?_)
  rw [← Finset.sum_mul]
  ring

/-- An aggregation step of real data with real scales has real entries. -/
theorem aggregate_real {N M E D : Nat} (src : Fin E → Fin N) (lands : Fin E → Fin M → Prop)
    [∀ j i, Decidable (lands j i)] (scale : Fin M → EReal) (hs : ∀ i, ∃ r : ℝ, scale i = (r : EReal))
    (y : Fin N → Fin D → EReal) (hy : ∀ i f, ∃ r : ℝ, y i f = (r : EReal)) (i : Fin M) (f : Fin D) :
    ∃ r : ℝ, aggregate src lands scale y i f = (r : EReal) := by
  choose sr hsr using hs
  choose yr hyr using hy
  obtain rfl : scale = fun i' => (sr i' : EReal) := funext hsr
  obtain rfl : y = fun i' f' => (yr i' f' : EReal) := funext (fun i' => funext (hyr i'))
  exact ⟨_, aggregate_coe src lands sr yr i f⟩

/-- The product of a matrix of real entries with a matrix of real entries has real entries. -/
theorem rowMul_real {N D K : Nat} (y : Fin N → Fin D → EReal) (hy : ∀ i f, ∃ r : ℝ, y i f = (r : EReal))
    (W : Fin D → Fin K → EReal) (hW : ∀ f g, ∃ r : ℝ, W f g = (r : EReal)) (i : Fin N) (g : Fin K) :
    ∃ r : ℝ, (∑ f : Fin D, y i f * W f g) = (r : EReal) := by
  choose yr hyr using hy
  choose Wr hWr using hW
  obtain rfl : y = fun i' f' => (yr i' f' : EReal) := funext (fun i' => funext (hyr i'))
  obtain rfl : W = fun f' g' => (Wr f' g' : EReal) := funext (fun f' => funext (hWr f'))
  exact ⟨_, rowMul_coe yr Wr i g⟩

/-- An aggregation step acts on rows and a right factor `W` on columns, so for real entries they commute:
    `(A y) W = A (y W)`. -/
theorem aggregate_mul_right {N M E D K : Nat} (src : Fin E → Fin N) (lands : Fin E → Fin M → Prop)
    [∀ j i, Decidable (lands j i)] (scale : Fin M → EReal) (hs : ∀ i, ∃ r : ℝ, scale i = (r : EReal))
    (y : Fin N → Fin D → EReal) (hy : ∀ i f, ∃ r : ℝ, y i f = (r : EReal))
    (W : Fin D → Fin K → EReal) (hW : ∀ f g, ∃ r : ℝ, W f g = (r : EReal)) (i : Fin M) (g : Fin K) :
    (∑ f : Fin D, aggregate src lands scale y i f * W f g)
      = aggregate src lands scale (fun i' g' => ∑ f : Fin D, y i' f * W f g') i g := by
  choose sr hsr using hs
  choose yr hyr using hy
  choose Wr hWr using hW
  obtain rfl : scale = fun i' => (sr i' : EReal) := funext hsr
  obtain rfl : y = fun i' f' => (yr i' f' : EReal) := funext (fun i' => funext (hyr i'))
  obtain rfl : W = fun f' g' => (Wr f' g' : EReal) := funext (fun f' => funext (hWr f'))
  have hyW : (fun (i' : Fin N) (g' : Fin K) => ∑ f : Fin D, (yr i' f : EReal) * (Wr f g' : EReal))
      = fun i' g' => ((∑ f : Fin D, yr i' f * Wr f g' : ℝ) : EReal) :=
    funext (fun i' => funext (fun g' => rowMul_coe yr Wr i' g'))
  rw [hyW, aggregate_coe src lands sr (fun i' g' => ∑ f : Fin D, yr i' f * Wr f g') i g,
    ← aggregate_mul_right_real src lands sr yr Wr i g, coe_sum_real]
  refine Finset.sum_congr rfl (fun f _ => ?_)
  rw [aggregate_coe src lands sr yr i f, ← EReal.coe_mul]

/-- Two aggregation steps composed (the whole propagation `D⁻¹ H B⁻¹ Hᵀ`) commute with a right factor `W`, for real
    entries: the one-step statement applied to the outer step, then to the inner one. -/
theorem aggregate2_mul_right {N M P E D K : Nat} (src : Fin E → Fin N) (lands : Fin E → Fin M → Prop)
    [∀ j i, Decidable (lands j i)] (scale : Fin M → EReal) (hs : ∀ i, ∃ r : ℝ, scale i = (r : EReal))
    (src2 : Fin E → Fin M) (lands2 : Fin E → Fin P → Prop)
    [∀ j i, Decidable (lands2 j i)] (scale2 : Fin P → EReal) (hs2 : ∀ i, ∃ r : ℝ, scale2 i = (r : EReal))
    (y : Fin N → Fin D → EReal) (hy : ∀ i f, ∃ r : ℝ, y i f = (r : EReal))
    (W : Fin D → Fin K → EReal) (hW : ∀ f g, ∃ r : ℝ, W f g = (r : EReal)) (i : Fin P) (g : Fin K) :
    (∑ f : Fin D, aggregate src2 lands2 scale2 (aggregate src lands scale y) i f * W f g)
      = aggregate src2 lands2 scale2
          (aggregate src lands scale (fun i' g' => ∑ f : Fin D, y i' f * W f g')) i g := by
  have hin : (fun (i' : Fin M) (g' : Fin K) => ∑ f : Fin D, aggregate src lands scale y i' f * W f g')
      = aggregate src lands scale (fun i' g' => ∑ f : Fin D, y i' f * W f g') :=
    funext (fun i' => funext (fun g' => aggregate_mul_right src lands scale hs y hy W hW i' g'))
  rw [aggregate_mul_right src2 lands2 scale2 hs2 (aggregate src lands scale y)
    (aggregate_real src lands scale hs y hy) W hW i g, hin]

end Hypergraph

end
-- ==== Proof.PropagateLinear.lean ====
/-
  The propagation `D⁻¹ H B⁻¹ Hᵀ` acts on the rows of a feature matrix and a right factor `W` on its columns, so the
  two commute: propagating `x` and multiplying by `W` is propagating `x · W`, entry by entry, when the entries of `x`
  and `W` are reals (the reciprocal degrees always are). The two sides run the propagation at different feature
  widths; its index arithmetic and its degrees do not depend on the width.
-/
import proofs.«132386_j88364657148583_2_alg».proof.Proof.PropagateRead
import proofs.«132386_j88364657148583_2_alg».proof.Proof.AggregateLinear

noncomputable section

namespace Hypergraph

open Idealize.ShloMosaic Idealize.ShloMosaic.ValueIdx Idealize.ShloMosaic.RowGatherScatter

/-- Row `i` of the propagated `x` times column `g` of `W` is entry `(i, g)` of the propagated product `x · W`. -/
theorem propagate_mul_right {D K : Nat} (R : Recs D) (R' : Recs K)
    {wfg : GatherDims.WF ⟨2, ![8192, D]⟩ ⟨2, ![65536, 1]⟩ ⟨2, ![65536, D]⟩ [1] [0] [] [0] [] 1 ![1, D]}
    {wfs : ScatterDims.WF ⟨2, ![8192, D]⟩ ⟨2, ![65536, 1]⟩ ⟨2, ![65536, D]⟩ [1] [0] [0] 1}
    {wf1 : ScatterDims.WF ⟨1, ![8192]⟩ ⟨2, ![65536, 1]⟩ ⟨1, ![65536]⟩ [] [0] [0] 1}
    {wfg' : GatherDims.WF ⟨2, ![8192, K]⟩ ⟨2, ![65536, 1]⟩ ⟨2, ![65536, K]⟩ [1] [0] [] [0] [] 1 ![1, K]}
    {wfs' : ScatterDims.WF ⟨2, ![8192, K]⟩ ⟨2, ![65536, 1]⟩ ⟨2, ![65536, K]⟩ [1] [0] [0] 1}
    (hg : R.g = rowGatherDims 8192 65536 D wfg) (hsc : R.sc = rowScatterDims 8192 65536 D wfs)
    (hsc1 : R.sc1 = elemScatterDims 8192 65536 wf1)
    (hg' : R'.g = rowGatherDims 8192 65536 K wfg') (hsc' : R'.sc = rowScatterDims 8192 65536 K wfs')
    (hn : ∀ idx, normIdx R' idx = normIdx R idx) (hd : ∀ idx, invDegree R' idx = invDegree R idx)
    (nidx eidx : IVec SE 32) (x : FVec Ideal (SND D) .f32) (hx : ∀ i, ∃ r : ℝ, x i = (r : EReal))
    (W : Fin D → Fin K → EReal) (hW : ∀ f g, ∃ r : ℝ, W f g = (r : EReal))
    (XW : FVec Ideal (SND K) .f32) (hXW : ∀ i g, XW (ix2 i g) = ∑ f : Fin D, x (ix2 i f) * W f g)
    (i : Fin 8192) (g : Fin K) :
    (∑ f : Fin D, propagate R nidx eidx x (ix2 i f) * W f g) = propagate R' nidx eidx XW (ix2 i g) := by
  rw [propagate_apply R' hg' hsc']
  simp only [propagate_apply R hg hsc]
  rw [aggregate2_mul_right _ _ _ (fun i' => invDegree_real R hsc1 eidx i') _ _ _ (fun i' => invDegree_real R hsc1 nidx i')
    _ (fun i' f' => hx (ix2 i' f')) W hW i g]
  have hfun : (fun (i' : Fin 8192) (g' : Fin K) => XW (ix2 i' g')) = fun i' g' => ∑ f : Fin D, x (ix2 i' f) * W f g' :=
    funext fun i' => funext fun g' => hXW i' g'
  rw [hfun]
  simp only [hn, hd]

end Hypergraph

end
-- ==== Proof.FiniteInputs.lean ====
/-
  From the stated precondition to "every entry is a real number".

  The precondition is the conjunction, over the five float arguments, of `all (|a| < +∞)`, stated as: the entrywise
  comparison of `max a (-a)` with the pattern of `+∞`, reduced by `and` over every axis from the constant 1, and the
  five one-bit results joined by `and`. If the whole word is 1 then each conjunct is 1, each reduction met only 1s, and
  at each entry `max a (-a) < ⊤` in the extended reals — which excludes both infinities, so the entry is a real.
-/
import proofs.«132386_j88364657148583_2_alg».proof.Defs
import proofs.«132386_j88364657148583_2_alg».proof.Proof.Gen.Pre_finite_inputs
import Idealize.ShloMosaic.Lib.ReduceAll
import Idealize.ShloMosaic.Lib.ValueIdx

noncomputable section

namespace Cert.FiniteInputs

open Idealize.ShloMosaic Cert.Pre_finite_inputs

/-- The index type of the rank-0 shape has one element. -/
instance subsingleton_scalarIdx : Subsingleton S_.Idx := ⟨fun a b => funext fun d => d.elim0⟩

/-- An extended real whose absolute value `max x (-x)` compares strictly below the pattern of `+∞` is a real:
    `⊥` and `⊤` both have absolute value `⊤`. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | top => simp at hlt
  | coe r => exact ⟨r, rfl⟩

/-- `all (|a| < +∞) = 1` for an array of any shape: every entry of `a` is a real. -/
theorem all_real {s : Shape} {axes : List (Fin s.rank)} (a : FVec Ideal s .f32)
    (hb : S_.BroadcastsInDim s (![] : Fin 0 → Fin s.rank)) (hr : s.ReducesTo axes S_) (hu : 0 < S_.numel)
    (j : S_.Idx)
    (e : Host.reduce IntOp.andi
          (cmpf .olt (Host.absf a) (broadcastInDim s ![] hb (constant S_ .f32 0x7F800000#32)))
          (constantI S_ 1 1#1) hr hu j = 1#1)
    (i : s.Idx) : ∃ r : ℝ, a i = (r : EReal) :=
  real_of_abs_lt_inf (a i) (Host.reduce_andi_all _ _ hr hu j e i)

variable [Facts]

/-- If the precondition holds then every entry of the first argument, the feature matrix, is a real: the word at its
    one index is a five-fold conjunction, and its first conjunct is `all (|a0| < +∞)`. -/
theorem x_real (a0 : FVec Ideal S8192x1386 .f32) (a1 : IVec S65536 32) (a2 : IVec S65536 32)
    (a3 : FVec Ideal S1386x4096 .f32) (a4 : FVec Ideal S4096 .f32) (a5 : FVec Ideal S4096x64 .f32)
    (a6 : FVec Ideal S64 .f32)
    (h : Cert.Pre_finite_inputs.fn (F := Ideal) a0 a1 a2 a3 a4 a5 a6 = fun _ => 1#1) :
    ∀ i, ∃ r : ℝ, a0 i = (r : EReal) := by
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨h3, _⟩, _⟩, _⟩, _⟩ := h0
  exact all_real a0 _ _ _ _ h3

/-- The same for the fourth argument: every entry of the first weight matrix is a real. -/
theorem W1_real (a0 : FVec Ideal S8192x1386 .f32) (a1 : IVec S65536 32) (a2 : IVec S65536 32)
    (a3 : FVec Ideal S1386x4096 .f32) (a4 : FVec Ideal S4096 .f32) (a5 : FVec Ideal S4096x64 .f32)
    (a6 : FVec Ideal S64 .f32)
    (h : Cert.Pre_finite_inputs.fn (F := Ideal) a0 a1 a2 a3 a4 a5 a6 = fun _ => 1#1) :
    ∀ i, ∃ r : ℝ, a3 i = (r : EReal) := by
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨_, h7⟩, _⟩, _⟩, _⟩ := h0
  exact all_real a3 _ _ _ _ h7

end Cert.FiniteInputs

end
-- ==== Proof.KernelValue.lean ====
/-
  The idealized kernel's three results are the reference's functions of the arguments.

  First result. The kernel propagates the 1386 input features over the hypergraph and then applies the dense layer:
  entry (P, Q) is max(∑ₖ (𝒫x)(P, k) · W₁(k, Q) + b₁(Q), 0). The reference applies the layer's product first and propagates
  its 4096 outputs: max((𝒫(x W₁))(P, Q) + b₁(Q), 0). The propagation acts on rows, the weights on columns, and for
  finite x and W₁ (the precondition) the two commute, entry by entry.
-/
import proofs.«132386_j88364657148583_2_alg».proof.Proof.KernelRun
import proofs.«132386_j88364657148583_2_alg».proof.Proof.KernelBoundary
import proofs.«132386_j88364657148583_2_alg».proof.Proof.KernelEntry
import proofs.«132386_j88364657148583_2_alg».proof.Proof.FeatRegion
import proofs.«132386_j88364657148583_2_alg».proof.Proof.ProductRegion
import proofs.«132386_j88364657148583_2_alg».proof.Proof.BiasTanhRegion
import proofs.«132386_j88364657148583_2_alg».proof.Proof.KernelEntryLate
import proofs.«132386_j88364657148583_2_alg».proof.Proof.RefValue
import proofs.«132386_j88364657148583_2_alg».proof.Proof.PropagateLinear
import proofs.«132386_j88364657148583_2_alg».proof.Proof.FiniteInputs
import Idealize.ShloMosaic.Lib.ValueLayout

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.SL.Sem
open Cert.ReferenceIdeal.RefValue (refFeat refHid refCode recs4096)

variable (m : (ℓ : Loc nD τ sig) → Buf (Elt Ideal) ℓ) (ρ : Dev nD → PrngReg)

theorem recs1386_g : Entry.recs1386.g = RowGatherScatter.rowGatherDims 8192 65536 1386 gather_S8192x1386_S65536x1_S65536x1386_1_0_n_n_0_1_11386_wf := rfl
theorem recs1386_sc : Entry.recs1386.sc = RowGatherScatter.rowScatterDims 8192 65536 1386 scatter_S8192x1386_S65536x1_S65536x1386_1_0_0_1_wf := rfl
theorem recs1386_sc1 : Entry.recs1386.sc1 = RowGatherScatter.elemScatterDims 8192 65536 scatter_S8192_S65536x1_S65536_n_0_0_1_wf := rfl

/-- The index arithmetic of the propagation does not depend on the feature width. -/
theorem normIdx_width (idx : IVec Hypergraph.SE 32) : Hypergraph.normIdx recs4096 idx = Hypergraph.normIdx Entry.recs1386 idx := rfl
/-- Nor do the reciprocal degrees. -/
theorem invDegree_width (idx : IVec Hypergraph.SE 32) : Hypergraph.invDegree recs4096 idx = Hypergraph.invDegree Entry.recs1386 idx := rfl

/-- THE FIRST RESULT: what region 0 leaves in its output array is the reference's first result of the arguments. -/
theorem feat_arr_eq (hpre : Cert.Pre_KernelIdeal (hPre_finite_inputs := Cert.Pre_finite_inputs.Gen.facts) m) (c : Dev nD) :
    (dat0 (V5 m ρ) c).arrAt 3 cfg0.N
      = refFeat (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [Dense.final0, Entry.entry0_left, Entry.entry0_right, Entry.entry0_bias]
  refine funext fun (i : S8192x4096.Idx) => ?_
  obtain ⟨P, Q, rfl⟩ : ∃ (P : Fin 8192) (Q : Fin 4096), i = ix2 P Q := ⟨i 0, i 1, eq_ix2 i⟩
  rw [Dense.denseRelu_ix2, Cert.ReferenceIdeal.RefValue.refFeat_apply]
  unfold Dense.denseReluAt
  have hx := @Cert.FiniteInputs.x_real Cert.Pre_finite_inputs.Gen.facts _ _ _ _ _ _ _ (hpre c)
  have hW := @Cert.FiniteInputs.W1_real Cert.Pre_finite_inputs.Gen.facts _ _ _ _ _ _ _ (hpre c)
  refine congrArg₂ max (congrArg₂ (· + ·) ?_ ?_) rfl
  · exact Hypergraph.propagate_mul_right Entry.recs1386 recs4096 recs1386_g recs1386_sc recs1386_sc1
      Cert.ReferenceIdeal.RefValue.recs4096_g Cert.ReferenceIdeal.RefValue.recs4096_sc normIdx_width invDegree_width
      (m ((c.tc : Thread nD τ).loc main_arg1)) (m ((c.tc : Thread nD τ).loc main_arg2)) (m ((c.tc : Thread nD τ).loc main_arg0)) hx
      (fun f g => m ((c.tc : Thread nD τ).loc main_arg3) (ix2 f g)) (fun f g => hW (ix2 f g)) _
      (fun i g => Cert.ReferenceIdeal.RefValue.xW1_apply (m ((c.tc : Thread nD τ).loc main_arg0)) (m ((c.tc : Thread nD τ).loc main_arg3)) i g) P Q
  · exact shapeCast_a_1a_apply (m ((c.tc : Thread nD τ).loc main_arg4)) _ (0 : Fin 1) Q

/-- The second region's output: the product of the first result with the second weights, as the reference forms it. -/
theorem xw2_eq (hpre : Cert.Pre_KernelIdeal (hPre_finite_inputs := Cert.Pre_finite_inputs.Gen.facts) m) (c : Dev nD) :
    W8 m ρ c (Proc.devRef .tc main_v49)
      = Host.dotGeneral (F := Ideal) (φ₁ := .f32) (φ₂ := .f32) Cert.ReferenceIdeal.dot_S8192x4096_S4096x64_S8192x64_1_0_0_1_n_n none
          (refFeat (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)))
          (m ((c.tc : Thread nD τ).loc main_arg5)) := by
  have h46 : W6 m ρ c (Proc.devRef .tc main_v46)
      = refFeat (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) :=
    (W6_arr m ρ c 3).trans (feat_arr_eq m ρ hpre c)
  refine (W8_arr m ρ c 2).trans ?_
  rw [Product.final1, EntryLate.entry1_left, EntryLate.entry1_right, h46]
  refine funext fun (i : S8192x64.Idx) => ?_
  obtain ⟨P, Q, rfl⟩ : ∃ (P : Fin 8192) (Q : Fin 64), i = ix2 P Q := ⟨i 0, i 1, eq_ix2 i⟩
  rw [Product.rowCol_ix2, Cert.ReferenceIdeal.RefValue.featW2_apply]
  rfl

/-- THE SECOND RESULT. -/
theorem hid_arr_eq (hpre : Cert.Pre_KernelIdeal (hPre_finite_inputs := Cert.Pre_finite_inputs.Gen.facts) m) (c : Dev nD) :
    (dat2 (V13 m ρ) c).arrAt 2 cfg2.N
      = refHid (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  rw [BiasTanh.final2_hid, EntryLate.entry2_left, EntryLate.entry2_bias, xw2_eq m ρ hpre c]
  refine funext fun (i : S8192x64.Idx) => ?_
  obtain ⟨P, Q, rfl⟩ : ∃ (P : Fin 8192) (Q : Fin 64), i = ix2 P Q := ⟨i 0, i 1, eq_ix2 i⟩
  rw [BiasTanh.biasAdd_ix2, Cert.ReferenceIdeal.RefValue.refHid_apply]
  refine congrArg₂ (· + ·) rfl ?_
  exact shapeCast_a_1a_apply (m ((c.tc : Thread nD τ).loc main_arg6)) _ (0 : Fin 1) Q

/-- THE THIRD RESULT. -/
theorem code_arr_eq (hpre : Cert.Pre_KernelIdeal (hPre_finite_inputs := Cert.Pre_finite_inputs.Gen.facts) m) (c : Dev nD) :
    (dat2 (V13 m ρ) c).arrAt 3 cfg2.N
      = refCode (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  have hh := hid_arr_eq m ρ hpre c
  rw [BiasTanh.final2_hid] at hh
  rw [BiasTanh.final2_code]
  refine funext fun (i : S8192x64.Idx) => ?_
  obtain ⟨P, Q, rfl⟩ : ∃ (P : Fin 8192) (Q : Fin 64), i = ix2 P Q := ⟨i 0, i 1, eq_ix2 i⟩
  rw [Cert.ReferenceIdeal.RefValue.refCode_apply]
  exact congrArg Ideal.tanh (congrFun hh (ix2 P Q))

/-- THE KERNEL'S RUN, its three results at the reference's functions of the arguments and the arguments as launched. -/
theorem run (hpre : Cert.Pre_KernelIdeal (hPre_finite_inputs := Cert.Pre_finite_inputs.Gen.facts) m) :
    θ_run defs (onTc (τ := τ) (main (F := Ideal))) ⟨m, fun _ => 0, ρ⟩ fun r => ∀ c : Dev nD,
      r.2.mem ((c.tc : Thread nD τ).loc main_v46)
        = refFeat (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_v94_0)
        = refHid (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_v94_1)
        = refCode (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
      ⟨(h c).1.trans ((Results.W14_main_v46 m ρ c).trans (feat_arr_eq m ρ hpre c)),
       (h c).2.1.trans ((Results.W14_main_v94_0 m ρ c).trans (hid_arr_eq m ρ hpre c)),
       (h c).2.2.1.trans ((Results.W14_main_v94_1 m ρ c).trans (code_arr_eq m ρ hpre c)),
       (h c).2.2.2⟩)
    (Results.run_results m ρ)

end Cert.KernelIdeal.KernelValue

end
-- ==== Proof.lean ====
/-
  The proof of `Cert.Claim`: a two-layer hypergraph convolution, the kernel against its reference, at the ideal values.

  Both compute `feat = relu (P (x W1) + b1)`, `hid = P (feat W2) + b2`, `code = tanh hid`, where `P = D⁻¹ H B⁻¹ Hᵀ` is the
  propagation over the hypergraph: rows of nodes are summed onto the hyperedges they lie on and divided by the
  hyperedge's degree, then back onto the nodes and divided by the node's degree (a degree of zero gives a zero row).
  The two differ in the first layer. The reference multiplies first and propagates the 4096 output columns,
  `P (x W1)`; the kernel propagates the 1386 input columns and multiplies afterwards, `(P x) W1`. A propagation step
  acts on rows — each result row is a scaled finite sum of source rows — and the weight matrix acts on columns, so the
  two commute: both sides are one double sum over incidences and columns taken in the two orders. On the extended reals
  this exchange needs every entry to be a real (distributivity fails at the infinities), which is what the stated
  precondition gives: each float argument satisfies `|a| < +∞` entrywise, so neither infinity occurs in `x` or `W1`, and
  scaled sums of products of reals are reals. The second layer is, operation for operation, the reference's. A change
  of float format is the identity at the ideal values, and `tanh (1 · h) = tanh h`.

  Hence both runs end with the same three arrays — `refFeat`, `refHid`, `refCode` of the seven arguments — and, from
  memories agreeing on the arguments, with equal results; each program leaves its arguments unchanged.
-/
import proofs.«132386_j88364657148583_2_alg».proof.Defs
import proofs.«132386_j88364657148583_2_alg».proof.Proof.Gen.Kernel
import proofs.«132386_j88364657148583_2_alg».proof.Proof.Gen.Kernel.Skeleton
import proofs.«132386_j88364657148583_2_alg».proof.Proof.Gen.Kernel.Launch
import proofs.«132386_j88364657148583_2_alg».proof.Proof.Gen.Kernel.Points
import proofs.«132386_j88364657148583_2_alg».proof.Proof.Gen.Kernel.Frame
import proofs.«132386_j88364657148583_2_alg».proof.Proof.Gen.KernelIdeal
import proofs.«132386_j88364657148583_2_alg».proof.Proof.Gen.KernelIdeal.Skeleton
import proofs.«132386_j88364657148583_2_alg».proof.Proof.Gen.KernelIdeal.Launch
import proofs.«132386_j88364657148583_2_alg».proof.Proof.Gen.KernelIdeal.Points
import proofs.«132386_j88364657148583_2_alg».proof.Proof.Gen.KernelIdeal.Frame
import proofs.«132386_j88364657148583_2_alg».proof.Proof.Gen.ReferenceIdeal
import proofs.«132386_j88364657148583_2_alg».proof.Proof.Gen.Pre_finite_inputs
import proofs.«132386_j88364657148583_2_alg».proof.Proof.RefRun
import proofs.«132386_j88364657148583_2_alg».proof.Proof.RefValue
import proofs.«132386_j88364657148583_2_alg».proof.Proof.KernelValue
import Idealize.ShloMosaic.Adequacy
import Idealize.ShloMosaic.Init

noncomputable section

namespace Cert.Proof

open Idealize.ShloMosaic Idealize.SL.Sem

/-- The kernel runs and leaves its arguments unchanged (the generated frame). -/
theorem frame_k : Cert.frame_Kernel (hKernel := Cert.Kernel.Gen.facts)
    (hPre_finite_inputs := Cert.Pre_finite_inputs.Gen.facts) :=
  fun m ρ _ => Cert.Kernel.Gen.frame m ρ

/-- The kernel at the ideal values runs and leaves its arguments unchanged (the generated frame). -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- The reference runs and leaves its arguments unchanged: its run with the three results dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2.2)
    (Cert.ReferenceIdeal.RefValue.run m ρ)

/-- No operation was rewritten between the kernel and its reading at the ideal values. -/
theorem preserves : Cert.preserves_Kernel_KernelIdeal := trivial

/-- From memories agreeing on the seven arguments, with finite inputs, both programs end with the same three
    arrays: the kernel's run ends at `refFeat`, `refHid`, `refCode` of its own arguments, the reference's at the same
    functions of its arguments, which are the kernel's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, _, Cert.KernelIdeal.KernelValue.run m ρ hpre, ?_⟩
  refine (θ_run Cert.ReferenceIdeal.defs _ _).mono (fun _ h c => ⟨?_, ?_, ?_, (h c).2.2.2⟩)
    (Cert.ReferenceIdeal.RefValue.run m' ρ')
  · rw [(h c).1, (hagree c).1, (hagree c).2.1, (hagree c).2.2.1, (hagree c).2.2.2.1, (hagree c).2.2.2.2.1]
  · rw [(h c).2.1, (hagree c).1, (hagree c).2.1, (hagree c).2.2.1, (hagree c).2.2.2.1, (hagree c).2.2.2.2.1,
      (hagree c).2.2.2.2.2.1, (hagree c).2.2.2.2.2.2]
  · rw [(h c).2.2.1, (hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
